-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x1024 .f32) (main_arg1 : FVec F S4x2048x1024 .f32) (main_arg2 : FVec F S4x2048x1024 .f32) (main_arg3 : FVec F S1024x1024 .f32) (main_arg4 : FVec F S1024 .f32) (main_arg5 : FVec F S1024x1024 .f32) (main_arg6 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S1x256x1024 : Shape := ⟨3, ![1, 256, 1024]⟩
abbrev S256x1024 : Shape := ⟨2, ![256, 1024]⟩
abbrev S1x1024 : Shape := ⟨2, ![1, 1024]⟩
abbrev S4x2048x2048 : Shape := ⟨3, ![4, 2048, 2048]⟩
abbrev S1x2048x1024 : Shape := ⟨3, ![1, 2048, 1024]⟩
abbrev S1x256x2048 : Shape := ⟨3, ![1, 256, 2048]⟩
abbrev S2048x1024 : Shape := ⟨2, ![2048, 1024]⟩
abbrev S1024x2048 : Shape := ⟨2, ![1024, 2048]⟩
abbrev S256x2048 : Shape := ⟨2, ![256, 2048]⟩
abbrev S256 : Shape := ⟨1, ![256]⟩
abbrev S256x1 : Shape := ⟨2, ![256, 1]⟩

abbrev nBuf : Space → Nat
  | .hbm => 14
  | .vmem => 28
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .bf16⟩
  | .hbm, ⟨8, _⟩ => ⟨S1024x1024, .bf16⟩
  | .hbm, ⟨9, _⟩ => ⟨S4x2048x1024, .f32⟩
  | .hbm, ⟨10, _⟩ => ⟨S4x2048x1024, .f32⟩
  | .hbm, ⟨11, _⟩ => ⟨S4x2048x1024, .bf16⟩
  | .hbm, ⟨12, _⟩ => ⟨S4x2048x1024, .f32⟩
  | .hbm, ⟨13, _⟩ => ⟨S4x2048x2048, .f32⟩
  | .local _ .vmem, ⟨0, _⟩ => ⟨S1x256x1024, .f32⟩
  | .local _ .vmem, ⟨1, _⟩ => ⟨S1x256x1024, .f32⟩
  | .local _ .vmem, ⟨2, _⟩ => ⟨S1024x1024, .bf16⟩
  | .local _ .vmem, ⟨3, _⟩ => ⟨S1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1024x1024, .bf16⟩
  | .local _ .vmem, ⟨9, _⟩ => ⟨S1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1024x1024, .bf16⟩
  | .local _ .vmem, ⟨15, _⟩ => ⟨S1024, .f32⟩
  | .local _ .vmem, ⟨16, _⟩ => ⟨S1x256x1024, .bf16⟩
  | .local _ .vmem, ⟨17, _⟩ => ⟨S1x256x1024, .bf16⟩
  | .local _ .vmem, ⟨18, _⟩ => ⟨S1x256x1024, .f32⟩
  | .local _ .vmem, ⟨19, _⟩ => ⟨S1x256x1024, .f32⟩
  | .local _ .vmem, ⟨20, _⟩ => ⟨S1x2048x1024, .f32⟩
  | .local _ .vmem, ⟨21, _⟩ => ⟨S1x2048x1024, .bf16⟩
  | .local _ .vmem, ⟨22, _⟩ => ⟨S1024x1024, .bf16⟩
  | .local _ .vmem, ⟨23, _⟩ => ⟨S1024, .f32⟩
  | .local _ .vmem, ⟨24, _⟩ => ⟨S1x256x1024, .f32⟩
  | .local _ .vmem, ⟨25, _⟩ => ⟨S1x256x1024, .f32⟩
  | .local _ .vmem, ⟨26, _⟩ => ⟨S1x256x2048, .f32⟩
  | .local _ .vmem, ⟨27, _⟩ => ⟨S1x256x2048, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg4_0 : Ref sig .tc := ⟨.vmem, 23, rfl⟩
abbrev cc3_stg5_0 : Ref sig .tc := ⟨.vmem, 24, rfl⟩
abbrev cc3_stg5_1 : Ref sig .tc := ⟨.vmem, 25, rfl⟩
abbrev cc3_stg6_0 : Ref sig .tc := ⟨.vmem, 26, rfl⟩
abbrev cc3_stg6_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem4_0 : DmaSem sig := 23
abbrev cc3_sem5_0 : DmaSem sig := 24
abbrev cc3_sem5_1 : DmaSem sig := 25
abbrev cc3_sem6_0 : DmaSem sig := 26
abbrev cc3_sem6_1 : DmaSem sig := 27

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![4, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x256x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![4, 8], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x256x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S1x2048x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false]

abbrev stage3_2 : Fin 1 → Memref sig .tc .vmem S1x2048x1024 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, false]

abbrev stage3_3 : Fin 1 → Memref sig .tc .vmem S1024x1024 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S1x256x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S1x256x2048 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

class Facts₀ : Prop where
  bitsLt_bf16_f32 : FTy.bits .bf16 < FTy.bits .f32
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  shapeCasts_S256x1024_S1x256x1024 : S256x1024.ShapeCasts S1x256x1024
  packedbf16_S1x256x1024_S1x256x1024_0_0_0 : (Rect.unit (s := S1x256x1024) ![0, 0, 0] S1x256x1024.size inb_S1x256x1024_S1x256x1024_0_0_0).PackedRows (EltTy.packing .bf16)
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  transposes_S2048x1024_p1_0_S1024x2048 : S2048x1024.Transposes [1, 0] S1024x2048
  reduces_S256x2048_S256 : S256x2048.Reduces [1] S256
  shapeCasts_S256_S256x1 : S256.ShapeCasts S256x1
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  dot_S256x1024_S1024x1024_S256x1024_1_0_0_1_n_n_wf : DotDims.WF S256x1024 S1024x1024 S256x1024 [1] [0] [0] [1] [] []
  dot_S256x1024_S1024x2048_S256x2048_1_0_0_1_n_n_wf : DotDims.WF S256x1024 S1024x2048 S256x2048 [1] [0] [0] [1] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S4x2048x1024.size a
  hwx0_0 : ∀ i : grid0.Coords, EltTy.bits .f32 = 32 ∨ (Rect.block (s := S4x2048x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1024.size a ≤ S4x2048x1024.size a
  hwx0_3 : ∀ i : grid0.Coords, EltTy.bits .f32 = 32 ∨ (Rect.block (s := S4x2048x1024) S1x256x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S4x2048x1024.size a
  hwx1_0 : ∀ i : grid1.Coords, EltTy.bits .f32 = 32 ∨ (Rect.block (s := S4x2048x1024) S1x256x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x1024.size a ≤ S4x2048x1024.size a
  hwx1_3 : ∀ i : grid1.Coords, EltTy.bits .f32 = 32 ∨ (Rect.block (s := S4x2048x1024) S1x256x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x256x1024.size a ≤ S4x2048x1024.size a
  hwx2_0 : ∀ i : grid2.Coords, EltTy.bits .f32 = 32 ∨ (Rect.block (s := S4x2048x1024) S1x256x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x256x1024.size a ≤ S4x2048x1024.size a
  hwx2_3 : ∀ i : grid2.Coords, EltTy.bits .bf16 = 32 ∨ (Rect.block (s := S4x2048x1024) S1x256x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x256x1024.size a ≤ S4x2048x1024.size a
  hwx3_0 : ∀ i : grid3.Coords, EltTy.bits .f32 = 32 ∨ (Rect.block (s := S4x2048x1024) S1x256x1024.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x2048x1024.size a ≤ S4x2048x1024.size a
  hwx3_1 : ∀ i : grid3.Coords, EltTy.bits .f32 = 32 ∨ (Rect.block (s := S4x2048x1024) S1x2048x1024.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2048x1024.size a ≤ S4x2048x1024.size a
  hwx3_2 : ∀ i : grid3.Coords, EltTy.bits .bf16 = 32 ∨ (Rect.block (s := S4x2048x1024) S1x2048x1024.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1024x1024.size a ≤ S1024x1024.size a
  hwx3_3 : ∀ i : grid3.Coords, EltTy.bits .bf16 = 32 ∨ (Rect.block (s := S1024x1024) S1024x1024.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1024.size a ≤ S1024.size a
  hwx3_4 : ∀ i : grid3.Coords, EltTy.bits .f32 = 32 ∨ (Rect.block (s := S1024) S1024.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x256x1024.size a ≤ S4x2048x1024.size a
  hwx3_5 : ∀ i : grid3.Coords, EltTy.bits .f32 = 32 ∨ (Rect.block (s := S4x2048x1024) S1x256x1024.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S1x256x2048.size a ≤ S4x2048x2048.size a
  hwx3_6 : ∀ i : grid3.Coords, EltTy.bits .f32 = 32 ∨ (Rect.block (s := S4x2048x2048) S1x256x2048.size (cc3_transform_6 i) (hinb3_6 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x256x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S1x256x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S1x256x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v2) S1x256x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S1x2048x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v4) S1x2048x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v1) S1024x1024.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg6) S1024.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v5_0) S1x256x1024.size cc3_transform_5 reads3_5 true false 2 stage3_5 sem3_5
    hrank3 hreads3_5 hinb3_5 nbuf3_5 (Memref.isWhole_whole _) hwx3_5 hstage3_5

abbrev win3_6 : Pipeline.Window sig grid3 :=
  Pipeline.Window.ofSpec (Memref.whole main_v5_1) S1x256x2048.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x2048x1024, .f32⟩
  | .hbm, ⟨8, _⟩ => ⟨S1x1x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x2048, .f32⟩
  | .hbm, ⟨20, _⟩ => ⟨S_, .f32⟩
  | .hbm, ⟨21, _⟩ => ⟨S4x2048, .f32⟩
  | .hbm, ⟨22, _⟩ => ⟨S_, .f32⟩
  | .hbm, ⟨23, _⟩ => ⟨S4x2048, .f32⟩
  | .hbm, ⟨24, _⟩ => ⟨S4x2048, .f32⟩
  | .hbm, ⟨25, _⟩ => ⟨S4x2048x1, .f32⟩
  | .hbm, ⟨26, _⟩ => ⟨S4x2048x2048, .f32⟩
  | .hbm, ⟨27, _⟩ => ⟨S4x2048x2048, .f32⟩
  | .hbm, ⟨28, _⟩ => ⟨S4x2048x2048, .f32⟩
  | .hbm, ⟨29, _⟩ => ⟨S_, .f32⟩
  | .hbm, ⟨30, _⟩ => ⟨S4x2048, .f32⟩
  | .hbm, ⟨31, _⟩ => ⟨S4x2048x1, .f32⟩
  | .hbm, ⟨32, _⟩ => ⟨S4x2048x2048, .f32⟩
  | .hbm, ⟨33, _⟩ => ⟨S4x2048x2048, .f32⟩
  | .hbm, ⟨34, _⟩ => ⟨S4x2048x1024, .f32⟩
  | .hbm, ⟨35, _⟩ => ⟨S4x2048x1024, .f32⟩
  | .hbm, ⟨36, _⟩ => ⟨S1x1x1024, .f32⟩
  | .hbm, ⟨37, _⟩ => ⟨S4x2048x1024, .f32⟩
  | .hbm, ⟨38, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.KernelRun.lean ====
/-
  The idealized kernel's run with every buffer it leaves NAMED.

  @main is a stretch of host operations (the two bf16 casts of the weights) followed by four pipelined regions: three
  linear projections and the attention region. The buffer contents at the five segment boundaries are a fold from the
  launch memory: `W1` after the casts, and `W(k+2)` after region `k`, which is `W(k+1)` with region `k`'s arrays replaced
  by what its write-backs leave. Every weakly fair execution terminates, nothing faulting, in a memory whose every
  unscoped buffer holds exactly the last boundary's contents `W5`: the arguments, the intermediates and both results.
  This is the frame's launch over the segments, with the last thread state read against the final memory at EVERY
  unscoped reference rather than at the arguments only.
-/
import proofs.«147061_j49091476194121_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch's three obligations -/

/-- What the launch owns. The launch element is the rounds library's initial element over every pipeline's staging
    cells, carrying their launch tokens; owning it in the user component is, by definition of that component's
    embedding, owning its image in the machine's algebra. The per-core ghost resources asked for beside it are all
    `emp`, so their separating conjunction over the cores is `emp` and costs nothing. No update is needed. -/
theorem launch_tokens :
    (ownU (initOf (Pipeline.cells cfgs cellOf_inj) (Pipeline.launchToks cfgs cellOf_inj)) : sProp 𝕄)
      ⊢ |={Set.univ}=> iprop(BI.own (emb₁ (initOf (Pipeline.cells (Pipeline.pin (pcfgs (F := F)) adm) cellOf_inj)
            (Pipeline.launchToks (Pipeline.pin (pcfgs (F := F)) adm) cellOf_inj)))
          ∗ bigSep Finset.univ (fun _ : Dev nD => (iprop(emp) : sProp 𝕄))) := by
  have hemp : bigSep Finset.univ (fun _ : Dev nD => (iprop(emp) : sProp 𝕄)) = (BI.emp : sProp 𝕄) :=
    BI.bigSep_emp_const Finset.univ
  have hown : (ownU (initOf (Pipeline.cells cfgs cellOf_inj) (Pipeline.launchToks cfgs cellOf_inj)) : sProp 𝕄)
      ⊢ BI.own (emb₁ (initOf (Pipeline.cells (Pipeline.pin (pcfgs (F := F)) adm) cellOf_inj)
          (Pipeline.launchToks (Pipeline.pin (pcfgs (F := F)) adm) cellOf_inj))) := .rfl
  rw [hemp]
  iintro Hu
  imodintro
  isplitl [Hu]
  · iapply hown; iexact Hu
  · iempintro

/-- Why the launch memory gives the first thread state. The launch deals each core its unscoped buffers at the
    launch contents, its unscoped semaphores at zero, that it owes nothing, its launch credit, the generator register at
    its launch value, and the level facts. The first thread state asks, per core, for every unscoped buffer held at
    the first boundary's contents — which ARE the launch contents, the launch's family of buffers being the held set
    at that valuation —, the generator register at SOME state (the launch value witnesses it) and that the core owes
    nothing under SOME record of pairs (the empty record witnesses it). The semaphores, the credit and the level
    facts are not needed and are let go. Each core does this by itself, with no update. -/
theorem first_state :
    iprop((bigSep Finset.univ fun c : Dev nD => iprop(unscopedBufs c (fun b => m ((c : Thread nD τ).loc b)) ∗ unscopedSems0 c
          ∗ owes (c : Thread nD τ) ((0 : Dev nD → CellTallies nD τ sig Unit) c) ∅ ∗ Pipeline.launchCred 0 c ∗ prngReg c (ρ c) ∗ iprop(emp))) ∗ levAts L lv)
      ⊢ (|={Set.univ}=> bigSep Finset.univ fun c : Dev nD =>
          iprop(StableHlo.held (c : Thread nD τ) (Pipeline.ucRefs τ sig) (W0 m ρ c) ∗ R c) : sProp 𝕄) := by
  refine Pipeline.initEach L lv fun c => ?_
  rw [Pipeline.unscopedBufs_held c (W0 m ρ c)]
  iintro ⟨⟨Hbufs, -, Howes, -, Hreg, -⟩, -⟩
  imodintro
  isplitl [Hbufs]
  · iexact Hbufs
  isplitl [Hreg]
  · iexists (ρ c); iexact Hreg
  · iexists ∅; iexact Howes

/-- Why the last thread state reads the final memory. The last thread state holds every unscoped buffer of the core,
    whole and at the full share, at the last boundary's contents `W5`. A points-to held beside the state
    interpretation of a state forces that state's memory to hold the points-to's contents at its location; doing so
    for each unscoped reference in turn reads the whole family. The state interpretation is handed back unchanged;
    the generator register is not needed. -/
theorem final_read (c : Dev nD) (s' : Phys nD τ sig (Elt F)) :
    iprop(Tₙ m ρ c ∗ SI s')
      ⊢ (|={Set.univ}=> iprop(⌜∀ b ∈ Pipeline.ucRefs τ sig, s'.mem.mem (((c : Thread nD τ)).1, b) = W5 m ρ c b⌝ ∗ SI s') : sProp 𝕄) := by
  have hread : iprop(StableHlo.held (c : Thread nD τ) (Pipeline.ucRefs τ sig) (W5 m ρ c) ∗ SI s')
      ⊢ (iprop(⌜∀ b ∈ Pipeline.ucRefs τ sig, s'.mem.mem (((c : Thread nD τ)).1, b) = W5 m ρ c b⌝ ∗ SI s') : sProp 𝕄) :=
    pointsTo_read_all (Pipeline.ucRefs τ sig) (fun b => (((c : Thread nD τ)).1, b)) (W5 m ρ c) s'
  iintro ⟨⟨Hheld, -⟩, HSI⟩
  imodintro
  iapply hread
  isplitl [Hheld]
  · iexact Hheld
  · iexact HSI

set_option backward.isDefEq.respectTransparency.types false in
/-- Every weakly fair execution of @main terminates, nothing faulting, and in the final memory every unscoped buffer
    of every core holds the last segment boundary's contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := launch_tokens)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := first_state m ρ)
    (QY := fun c s => ∀ b ∈ Pipeline.ucRefs τ sig, s.mem (((c : Thread nD τ)).1, b) = W5 m ρ c b)
    (hfin := final_read m ρ)
    (hQ := fun s h => h)

/-- The same run, read at a TensorCore reference that is not scoped. -/
theorem run_at : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W5 m ρ c (Proc.devRef .tc b)) :=
  (θ_run defs _ _).mono (fun r h c b hb => h c _ (mem_uc b hb)) (run_all m ρ)

end Cert.KernelIdeal.RunValue

end
-- ==== Proof.LibPlainMatmul.lean ====
/-
  A plain matrix product into a zero accumulator, read at an entry.

  For a dot whose dimension numbers contract the left operand's columns against the right operand's rows, with no batch
  axis — `[M, K] × [K, N] → [M, N]` — the product accumulated into the zero splat is, at the extended reals, the
  textbook sum: entry `(p, c)` is the sum over `k` of `lhs (p, k) · rhs (k, c)`. The dimension numbers enter only
  through four coordinate facts about the dot's operand indices (which a literal record proves by evaluating its
  membership tests) and the fact that exactly one axis, of extent `K`, is contracted; the lemma is general in the
  extents, the element types and the contraction precision, so it serves every such product of a kernel body.
-/
import Idealize.ShloMosaic.PureOps.Ideal.Laws
import Idealize.ShloMosaic.Lib.ValueIdx

noncomputable section

namespace Cert.LibPlainMatmul

open Idealize.ShloMosaic Idealize.ShloMosaic.ValueIdx
open scoped BigOperators

/-- Entry `(p, c)` of `lhs · rhs` accumulated into zero is `Σ k, lhs (p, k) · rhs (k, c)`: the dot's sum over its
    one-axis contraction index, re-indexed along the bijection of that index with `Fin K`, each operand index then
    identified by its two coordinates. -/
theorem matmul_zero_ix2 {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (c : Fin N) :
    matmul D prec lhs rhs (constant ⟨2, ![M, N]⟩ .f32 0x00000000#32) (ix2 p c)
      = ∑ k : Fin K, lhs (ix2 p k) * rhs (ix2 k c) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainMatmul

end
-- ==== Proof.PayloadProj.lean ====
/-
  The projection body at an entry.

  One grid point of a projection region loads a [1, 256, 1024] block of activations, the whole [1024, 1024] weight
  (already in bf16, which at the extended reals is the same number) and the [1024] bias, and stores
  `block · W + bias`: at row r and output feature e the sum over d of block(0, r, d) · W(d, e), plus bias(e). The casts
  between [1, 256, 1024] and [256, 1024], the change of float format, and the bias re-laid as one row and spread over
  the 256 rows all read through to the operands; the matrix product into a zero accumulator is the plain sum.
-/
import proofs.«147061_j49091476194121_2_alg».proof.Proof.Gen.KernelIdeal.Skeleton
import proofs.«147061_j49091476194121_2_alg».proof.Proof.LibPlainMatmul
import Idealize.ShloMosaic.Lib.ValueLayout
import Idealize.ShloMosaic.Lib.Pipeline.Value

noncomputable section

namespace Cert.KernelIdeal.BodyValue

open Idealize.ShloMosaic Idealize.ShloMosaic.ValueIdx Cert.KernelIdeal Cert.KernelIdeal.Gen
open scoped BigOperators

/-! ## The [256, 1024] × [1024, 1024] product's operand indices -/

theorem dotRowsWeight_l0 (i : S256x1024.Idx) (q : dot_S256x1024_S1024x1024_S256x1024_1_0_0_1_n_n.contr.Idx) : (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem dotRowsWeight_l1 (i : S256x1024.Idx) (q : dot_S256x1024_S1024x1024_S256x1024_1_0_0_1_n_n.contr.Idx) : (dot_S256x1024_S1024x1024_S256x1024_1_0_0_1_n_n.lhsIdx i q 1).val = (q ⟨0, by decide⟩).val :=
  dot_S256x1024_S1024x1024_S256x1024_1_0_0_1_n_n.lhsIdx_val_of_single rfl i q
theorem dotRowsWeight_r0 (i : S256x1024.Idx) (q : dot_S256x1024_S1024x1024_S256x1024_1_0_0_1_n_n.contr.Idx) : (dot_S256x1024_S1024x1024_S256x1024_1_0_0_1_n_n.rhsIdx i q 0).val = (q ⟨0, by decide⟩).val :=
  dot_S256x1024_S1024x1024_S256x1024_1_0_0_1_n_n.rhsIdx_val_of_single rfl i q
theorem dotRowsWeight_r1 (i : S256x1024.Idx) (q : dot_S256x1024_S1024x1024_S256x1024_1_0_0_1_n_n.contr.Idx) : (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- A [256, 1024] block times a [1024, 1024] matrix, into zero, at (r, e): the sum over d of block(r, d) · W(d, e). -/
theorem rowsWeight_apply {φ₁ φ₂ : FTy} (prec : Option ContractPrecision) (lhs : FVec Ideal S256x1024 φ₁)
    (rhs : FVec Ideal S1024x1024 φ₂) (r : Fin 256) (e : Fin 1024) :
    matmul dot_S256x1024_S1024x1024_S256x1024_1_0_0_1_n_n prec lhs rhs (constant S256x1024 .f32 0x00000000#32) (ix2 r e)
      = ∑ d : Fin 1024, lhs (ix2 r d) * rhs (ix2 d e) :=
  Cert.LibPlainMatmul.matmul_zero_ix2 dot_S256x1024_S1024x1024_S256x1024_1_0_0_1_n_n prec rfl rfl
    dotRowsWeight_l0 dotRowsWeight_l1 dotRowsWeight_r0 dotRowsWeight_r1 lhs rhs r e

/-! ## The three projection bodies -/

/-- The f32 projection body (the query's region) at (u, r, e). -/
theorem k0_pay1_apply (x0 : Vec Ideal S1x256x1024 .f32) (x1 : Vec Ideal S1024x1024 .bf16) (x2 : Vec Ideal S1024 .f32)
    (u : Fin 1) (r : Fin 256) (e : Fin 1024) :
    k0_pay1 (F := Ideal) x0 x1 x2 (ix3 u r e)
      = (∑ d : Fin 1024, x0 (ix3 (0 : Fin 1) r d) * x1 (ix2 d e)) + x2 (ix1 e) := by
  unfold k0_pay1
  rw [shapeCast_ab_1ab_apply, addf_apply, rowsWeight_apply, broadcastTo_1b_ab_apply, shapeCast_a_1a_apply]
  simp only [truncf_apply, shapeCast_1ab_ab_apply, shapeCast_self]

/-- The f32 projection body (the key's region) at (u, r, e). -/
theorem k1_pay1_apply (x0 : Vec Ideal S1x256x1024 .f32) (x1 : Vec Ideal S1024x1024 .bf16) (x2 : Vec Ideal S1024 .f32)
    (u : Fin 1) (r : Fin 256) (e : Fin 1024) :
    k1_pay1 (F := Ideal) x0 x1 x2 (ix3 u r e)
      = (∑ d : Fin 1024, x0 (ix3 (0 : Fin 1) r d) * x1 (ix2 d e)) + x2 (ix1 e) := by
  unfold k1_pay1
  rw [shapeCast_ab_1ab_apply, addf_apply, rowsWeight_apply, broadcastTo_1b_ab_apply, shapeCast_a_1a_apply]
  simp only [truncf_apply, shapeCast_1ab_ab_apply, shapeCast_self]

/-- The bf16-stored projection body (the value's region) at (u, r, e): the final change of format is the identity. -/
theorem k2_pay1_apply (x0 : Vec Ideal S1x256x1024 .f32) (x1 : Vec Ideal S1024x1024 .bf16) (x2 : Vec Ideal S1024 .f32)
    (u : Fin 1) (r : Fin 256) (e : Fin 1024) :
    k2_pay1 (F := Ideal) x0 x1 x2 (ix3 u r e)
      = (∑ d : Fin 1024, x0 (ix3 (0 : Fin 1) r d) * x1 (ix2 d e)) + x2 (ix1 e) := by
  unfold k2_pay1
  rw [shapeCast_ab_1ab_apply, truncf_apply, addf_apply, rowsWeight_apply, broadcastTo_1b_ab_apply, shapeCast_a_1a_apply]
  simp only [truncf_apply, shapeCast_1ab_ab_apply, shapeCast_self]

end Cert.KernelIdeal.BodyValue

end
-- ==== Proof.Spec.lean ====
/-
  The mathematics of one attention layer, as functions of whole arrays over the extended reals.

  Inputs: three activations `query`, `key`, `value` of shape [4, 2048, 1024] (batch, position, feature), one
  projection `Wq`, `bq` shared by all three, and an output projection `Wo`, `bo`.

    linear X W b   at (β, s, e) :  Σ_d X(β, s, d) · W(d, e)  +  b(e)
    score Q K      at (β, s, t) :  Σ_e Q(β, s, e) · K(β, t, e)                  (no 1/√d factor)
    softmax S      at (β, s, t) :  exp(S(β,s,t) − M(β,s)) / Σ_t' exp(S(β,s,t') − M(β,s)),   M(β,s) = max_t S(β,s,t)
    context P V    at (β, s, e) :  Σ_t P(β, s, t) · V(β, t, e)

  and the two results are
    weights = softmax (score (linear query Wq bq) (linear key Wq bq))
    output  = linear (context weights (linear value Wq bq)) Wo bo.

  Every sum is a finite sum in the commutative monoid of the extended reals, so neither its order nor its grouping
  matters; the row maximum is a finite fold of `max` from −∞ (kept as the float word of −∞, which is never evaluated:
  only `a ≤ fold max a f` is used of it).
-/
import Idealize.ShloMosaic.PureOps.Ideal
import Idealize.ShloMosaic.PureOps.Ideal.Laws
import Idealize.ShloMosaic.Lib.ValueIdx

noncomputable section

namespace Cert.Attention

open Idealize.ShloMosaic Idealize.ShloMosaic.ValueIdx
open scoped BigOperators

/-- Activations: batch × position × feature. -/
abbrev Act : Shape := ⟨3, ![4, 2048, 1024]⟩
/-- A square projection matrix: feature in × feature out. -/
abbrev Mat : Shape := ⟨2, ![1024, 1024]⟩
/-- A bias vector. -/
abbrev Bias : Shape := ⟨1, ![1024]⟩
/-- Attention scores and weights: batch × query position × key position. -/
abbrev Att : Shape := ⟨3, ![4, 2048, 2048]⟩

/-- A linear layer along the feature axis: at (β, s, e) the sum over d of X(β, s, d) · W(d, e), plus b(e). -/
def linear (X : Act.Idx → EReal) (W : Mat.Idx → EReal) (b : Bias.Idx → EReal) : Act.Idx → EReal :=
  fun i => (∑ d : Fin 1024, X (ix3 (i 0) (i 1) d) * W (ix2 d (i 2))) + b (ix1 (i 2))

/-- Unscaled dot-product scores: at (β, s, t) the sum over e of Q(β, s, e) · K(β, t, e). -/
def score (Q K : Act.Idx → EReal) : Att.Idx → EReal :=
  fun i => ∑ e : Fin 1024, Q (ix3 (i 0) (i 1) e) * K (ix3 (i 0) (i 2) e)

/-- The float word of −∞, the value every row maximum starts from. -/
abbrev negInf : EReal := Ideal.ofBits .f32 0xFF800000#32

/-- The maximum of row (β, s) of the scores, folded from −∞ over the key positions. -/
def rowMax (S : Att.Idx → EReal) (β : Fin 4) (s : Fin 2048) : EReal :=
  (Finset.univ : Finset (Fin 2048)).fold max negInf (fun t => S (ix3 β s t))

/-- The shifted exponentials exp(S − rowMax). -/
def expShift (S : Att.Idx → EReal) : Att.Idx → EReal :=
  fun i => Ideal.exp (S i - rowMax S (i 0) (i 1))

/-- The normaliser of row (β, s): the sum over key positions of the shifted exponentials. -/
def rowSum (S : Att.Idx → EReal) (β : Fin 4) (s : Fin 2048) : EReal :=
  ∑ t : Fin 2048, expShift S (ix3 β s t)

/-- The softmax along the key axis. -/
def softmax (S : Att.Idx → EReal) : Att.Idx → EReal :=
  fun i => Ideal.div (expShift S i) (rowSum S (i 0) (i 1))

/-- The weighted average of the values: at (β, s, e) the sum over t of P(β, s, t) · V(β, t, e). -/
def context (P : Att.Idx → EReal) (V : Act.Idx → EReal) : Act.Idx → EReal :=
  fun i => ∑ t : Fin 2048, P (ix3 (i 0) (i 1) t) * V (ix3 (i 0) t (i 2))

/-- The attention weights of the layer. -/
def weights (query key : Act.Idx → EReal) (Wq : Mat.Idx → EReal) (bq : Bias.Idx → EReal) : Att.Idx → EReal :=
  softmax (score (linear query Wq bq) (linear key Wq bq))

/-- The layer's output. -/
def output (query key value : Act.Idx → EReal) (Wq : Mat.Idx → EReal) (bq : Bias.Idx → EReal)
    (Wo : Mat.Idx → EReal) (bo : Bias.Idx → EReal) : Act.Idx → EReal :=
  linear (context (weights query key Wq bq) (linear value Wq bq)) Wo bo

/-- Starting a fold of `max` from `a` and then taking the maximum with `a` once more changes nothing. -/
theorem max_fold_max_self {ι : Type} (s : Finset ι) (a : EReal) (f : ι → EReal) :
    max a (s.fold max a f) = s.fold max a f :=
  max_eq_right (Finset.le_fold_max a |>.mpr (Or.inl le_rfl))

end Cert.Attention

end
-- ==== Proof.LinearBlock.lean ====
/-
  One block of a projection region is the linear layer restricted to the block's rows.

  A projection region's grid is 4 × 8: point (β, σ) handles batch β and the 256 positions σ·256 … σ·256 + 255. Its body
  stores `block · W + bias` into the [1, 256, 1024] output block, where `block` is the matching [1, 256, 1024] block of
  the activations and `W`, `bias` are the whole weight and bias. So if the input block's row r is row (β, σ·256 + r) of
  an array X, the stored entry (u, r, e) is entry (β, σ·256 + r, e) of `linear X W bias`. This module states that once,
  over plain functions, for any body whose entry is the sum-plus-bias; the three regions instantiate it.
-/
import proofs.«147061_j49091476194121_2_alg».proof.Proof.Spec
import Idealize.ShloMosaic.Lib.ValueIdx

noncomputable section

namespace Cert.Attention

open Idealize.ShloMosaic Idealize.ShloMosaic.ValueIdx
open scoped BigOperators

/-- The zero offsets of a whole-buffer rectangle, at ranks 1, 2, 3. -/
theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl

/-- A [1, 256, 1024] block whose entry (u, r, e) is `Σ_d x0(0, r, d) · x1(d, e) + x2(e)`, read at `j`, is the linear
    layer of `X`, `W`, `b` at the array index `i`, as soon as row `j 1` of `x0` is row `(i 0, i 1)` of `X`, `x1` is `W`,
    `x2` is `b` and the two indices name the same output feature. -/
theorem linear_block_entry (pay : (⟨3, ![1, 256, 1024]⟩ : Shape).Idx → EReal)
    (x0 : (⟨3, ![1, 256, 1024]⟩ : Shape).Idx → EReal) (x1 : Mat.Idx → EReal) (x2 : Bias.Idx → EReal)
    (hpay : ∀ (u : Fin 1) (r : Fin 256) (e : Fin 1024),
      pay (ix3 u r e) = (∑ d : Fin 1024, x0 (ix3 (0 : Fin 1) r d) * x1 (ix2 d e)) + x2 (ix1 e))
    (X : Act.Idx → EReal) (W : Mat.Idx → EReal) (b : Bias.Idx → EReal)
    (j : (⟨3, ![1, 256, 1024]⟩ : Shape).Idx) (i : Act.Idx)
    (h0 : ∀ d : Fin 1024, x0 (ix3 (0 : Fin 1) (j 1) d) = X (ix3 (i 0) (i 1) d))
    (h1 : ∀ d e : Fin 1024, x1 (ix2 d e) = W (ix2 d e))
    (h2 : ∀ e : Fin 1024, x2 (ix1 e) = b (ix1 e))
    (hi : (i 2).val = (j 2).val) :
    pay j = linear X W b i := by
  obtain ⟨u, r, e, rfl⟩ : ∃ (u : Fin 1) (r : Fin 256) (e : Fin 1024), j = ix3 u r e := ⟨j 0, j 1, j 2, eq_ix3 j⟩
  have h0' : ∀ d : Fin 1024, x0 (ix3 (0 : Fin 1) r d) = X (ix3 (i 0) (i 1) d) := h0
  have e2 : i 2 = e := Fin.ext hi
  rw [hpay]
  show _ = (∑ d : Fin 1024, X (ix3 (i 0) (i 1) d) * W (ix2 d (i 2))) + b (ix1 (i 2))
  rw [e2]
  congr 1
  · exact Finset.sum_congr rfl fun d _ => by rw [h0' d, h1]
  · exact h2 _

end Cert.Attention

end
-- ==== Proof.RegionProj0.lean ====
/-
  Region 0 of @main: the query projection.

  The region's grid is 4 × 8 and its output window's block at point (β, σ) is rows σ·256 … σ·256 + 255 of batch β, all
  1024 features; the activation window moves with it, and the weight and bias windows are the whole arrays at every
  point. So what point (β, σ) writes back is block (β, σ) of `linear X W b`, where X, W, b are the region's three
  input arrays as it finds them; the 32 blocks tile the [4, 2048, 1024] array (the block holding row s is σ = s / 256),
  so after the region the output array is `linear X W b`.
-/
import proofs.«147061_j49091476194121_2_alg».proof.Proof.Gen.KernelIdeal.Frame
import proofs.«147061_j49091476194121_2_alg».proof.Proof.PayloadProj
import proofs.«147061_j49091476194121_2_alg».proof.Proof.LinearBlock
import Idealize.ShloMosaic.Lib.Pipeline.Value

set_option maxRecDepth 16384

noncomputable section

namespace Cert.KernelIdeal.Region0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen Cert.Attention
open scoped BigOperators
open Cert.KernelIdeal.BodyValue

variable (V : (c : Dev nD) → (b : Ref sig .tc) → Buf (Elt Ideal) ((c : Thread nD τ).loc b))

/-- The printed index maps, decided over the 32 grid points: the activation window's block index is the output
    window's on the batch and position axes, every other block index is zero, and the output's block indices stay
    inside 4 × 8. -/
theorem index_facts : ∀ t : Fin cfg0.N,
    win0_0.index t (0 : Fin 3) = win0_3.index t (0 : Fin 3)
    ∧ win0_0.index t (1 : Fin 3) = win0_3.index t (1 : Fin 3)
    ∧ win0_0.index t (2 : Fin 3) = 0 ∧ win0_3.index t (2 : Fin 3) = 0
    ∧ win0_1.index t (0 : Fin 2) = 0 ∧ win0_1.index t (1 : Fin 2) = 0
    ∧ win0_2.index t (0 : Fin 1) = 0
    ∧ win0_3.index t (0 : Fin 3) ≤ 3 ∧ win0_3.index t (1 : Fin 3) ≤ 7 :=
  (by decide +kernel : ∀ t : Fin grid0.N, _)

/-- Every block of the 4 × 8 tiling is some point's. -/
theorem index_onto : ∀ (q0 : Fin 4) (q1 : Fin 8), ∃ t : Fin cfg0.N, win0_3.index t = ![q0.val, q1.val, 0] :=
  (by decide +kernel : ∀ (q0 : Fin 4) (q1 : Fin 8), ∃ t : Fin grid0.N, win0_3.index t = ![q0.val, q1.val, 0])

/-- WHAT POINT `t` WRITES BACK is block `t` of the linear layer of the region's input arrays. -/
theorem flushed_eq (c : Dev nD) (t : Fin cfg0.N) :
    (dat0 V c).flushed 3 t
      = ((cfg0.win 3).blk t).view.read (Elt Ideal) (linear (V c main_arg0) (V c main_v0) (V c main_arg4)) := by
  show (cfg0.win 3).cut (grid0.coords t) ((dat0 V c).after 3 t) = _
  rw [after0_3]
  unfold out0_3
  rw [View.canon_unit_zero zeros3]
  simp only [View.ld_unit_zero (S := S1x256x1024) zeros3, View.ld_unit_zero (S := S1024x1024) zeros2,
    View.ld_unit_zero (S := S1024) zeros1]
  obtain ⟨e0, e1, e2, e3, e4, e5, e6, e7, e8⟩ := index_facts t
  funext j
  refine linear_block_entry _ (iblk0 V c 0 t) (iblk0 V c 1 t) (iblk0 V c 2 t)
    (k0_pay1_apply (iblk0 V c 0 t) (iblk0 V c 1 t) (iblk0 V c 2 t)) _ _ _ j (((cfg0.win 3).blk t).view.emb j) ?_ ?_ ?_ ?_
  · intro d
    show V c main_arg0 (((cfg0.win 0).blk t).view.emb (ix3 (0 : Fin 1) (j 1) d)) = _
    refine congrArg (V c main_arg0) (funext fun a => Fin.ext ?_)
    have hj0 : (j 0).val < 1 := (j 0).isLt
    match a with
    | ⟨0, _⟩ => show win0_0.index t (0 : Fin 3) * 1 + 1 * 0 = win0_3.index t (0 : Fin 3) * 1 + 1 * (j 0).val; omega
    | ⟨1, _⟩ => show win0_0.index t (1 : Fin 3) * 256 + 1 * (j 1).val = win0_3.index t (1 : Fin 3) * 256 + 1 * (j 1).val; omega
    | ⟨2, _⟩ => show win0_0.index t (2 : Fin 3) * 1024 + 1 * d.val = d.val; omega
  · intro d e
    show V c main_v0 (((cfg0.win 1).blk t).view.emb (ix2 d e)) = _
    refine congrArg (V c main_v0) (funext fun a => Fin.ext ?_)
    match a with
    | ⟨0, _⟩ => show win0_1.index t (0 : Fin 2) * 1024 + 1 * d.val = d.val; omega
    | ⟨1, _⟩ => show win0_1.index t (1 : Fin 2) * 1024 + 1 * e.val = e.val; omega
  · intro e
    show V c main_arg4 (((cfg0.win 2).blk t).view.emb (ix1 e)) = _
    refine congrArg (V c main_arg4) (funext fun a => Fin.ext ?_)
    match a with
    | ⟨0, _⟩ => show win0_2.index t (0 : Fin 1) * 1024 + 1 * e.val = e.val; omega
  · show win0_3.index t (2 : Fin 3) * 1024 + 1 * (j 2).val = (j 2).val
    omega

/-- An index of the array is in point `t`'s block iff each coordinate is in the block's range on its axis. -/
theorem mem_blk (t : Fin cfg0.N) (i : S4x2048x1024.Idx) :
    i ∈ ((cfg0.win 3).blk t).view.set ↔ ∀ a : Fin 3, win0_3.index t a * S1x256x1024.size a ≤ (i a).val
      ∧ (i a).val < win0_3.index t a * S1x256x1024.size a + S1x256x1024.size a := by
  show i ∈ ((View.whole main_v2).slice (win0_3.rect t)).set ↔ _
  rw [View.set_slice_whole, Rect.mem_set_unit]
  exact Iff.rfl

/-- THE COVER: row (β, s) lies in the block of the point whose block index is (β, s / 256). -/
theorem cover (i : S4x2048x1024.Idx) :
    ∃ t : Fin cfg0.N, (cfg0.win 3).flush t = true ∧ i ∈ ((cfg0.win 3).blk t).view.set := by
  have hi0 : (i 0).val < 4 := (i 0).isLt
  have hi1 : (i 1).val < 2048 := (i 1).isLt
  have hi2 : (i 2).val < 1024 := (i 2).isLt
  obtain ⟨t, ht⟩ := index_onto ⟨(i 0).val, hi0⟩ ⟨(i 1).val / 256, by omega⟩
  have q0 : win0_3.index t (0 : Fin 3) = (i 0).val := congrFun ht 0
  have q1 : win0_3.index t (1 : Fin 3) = (i 1).val / 256 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 1024 ≤ (i 2).val ∧ (i 2).val < win0_3.index t (2 : Fin 3) * 1024 + 1024; omega

/-- THE ARRAY after the region: the linear layer of the region's input arrays as it found them. -/
theorem array_eq (c : Dev nD) :
    (dat0 V c).arrAt 3 cfg0.N = linear (V c main_arg0) (V c main_v0) (V c main_arg4) :=
  (dat0 V c).arrAt_eq_of_cover 3 _ (fun t _ => flushed_eq V c t) cover

end Cert.KernelIdeal.Region0

end
-- ==== Proof.RegionProj1.lean ====
/-
  Region 1 of @main: the key projection.

  The region's grid is 4 × 8 and its output window's block at point (β, σ) is rows σ·256 … σ·256 + 255 of batch β, all
  1024 features; the activation window moves with it, and the weight and bias windows are the whole arrays at every
  point. So what point (β, σ) writes back is block (β, σ) of `linear X W b`, where X, W, b are the region's three
  input arrays as it finds them; the 32 blocks tile the [4, 2048, 1024] array (the block holding row s is σ = s / 256),
  so after the region the output array is `linear X W b`.
-/
import proofs.«147061_j49091476194121_2_alg».proof.Proof.Gen.KernelIdeal.Frame
import proofs.«147061_j49091476194121_2_alg».proof.Proof.PayloadProj
import proofs.«147061_j49091476194121_2_alg».proof.Proof.LinearBlock
import Idealize.ShloMosaic.Lib.Pipeline.Value

set_option maxRecDepth 16384

noncomputable section

namespace Cert.KernelIdeal.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen Cert.Attention
open scoped BigOperators
open Cert.KernelIdeal.BodyValue

variable (V : (c : Dev nD) → (b : Ref sig .tc) → Buf (Elt Ideal) ((c : Thread nD τ).loc b))

/-- The printed index maps, decided over the 32 grid points: the activation window's block index is the output
    window's on the batch and position axes, every other block index is zero, and the output's block indices stay
    inside 4 × 8. -/
theorem index_facts : ∀ t : Fin cfg1.N,
    win1_0.index t (0 : Fin 3) = win1_3.index t (0 : Fin 3)
    ∧ win1_0.index t (1 : Fin 3) = win1_3.index t (1 : Fin 3)
    ∧ win1_0.index t (2 : Fin 3) = 0 ∧ win1_3.index t (2 : Fin 3) = 0
    ∧ win1_1.index t (0 : Fin 2) = 0 ∧ win1_1.index t (1 : Fin 2) = 0
    ∧ win1_2.index t (0 : Fin 1) = 0
    ∧ win1_3.index t (0 : Fin 3) ≤ 3 ∧ win1_3.index t (1 : Fin 3) ≤ 7 :=
  (by decide +kernel : ∀ t : Fin grid1.N, _)

/-- Every block of the 4 × 8 tiling is some point's. -/
theorem index_onto : ∀ (q0 : Fin 4) (q1 : Fin 8), ∃ t : Fin cfg1.N, win1_3.index t = ![q0.val, q1.val, 0] :=
  (by decide +kernel : ∀ (q0 : Fin 4) (q1 : Fin 8), ∃ t : Fin grid1.N, win1_3.index t = ![q0.val, q1.val, 0])

/-- WHAT POINT `t` WRITES BACK is block `t` of the linear layer of the region's input arrays. -/
theorem flushed_eq (c : Dev nD) (t : Fin cfg1.N) :
    (dat1 V c).flushed 3 t
      = ((cfg1.win 3).blk t).view.read (Elt Ideal) (linear (V c main_arg1) (V c main_v0) (V c main_arg4)) := by
  show (cfg1.win 3).cut (grid1.coords t) ((dat1 V c).after 3 t) = _
  rw [after1_3]
  unfold out1_3
  rw [View.canon_unit_zero zeros3]
  simp only [View.ld_unit_zero (S := S1x256x1024) zeros3, View.ld_unit_zero (S := S1024x1024) zeros2,
    View.ld_unit_zero (S := S1024) zeros1]
  obtain ⟨e0, e1, e2, e3, e4, e5, e6, e7, e8⟩ := index_facts t
  funext j
  refine linear_block_entry _ (iblk1 V c 0 t) (iblk1 V c 1 t) (iblk1 V c 2 t)
    (k1_pay1_apply (iblk1 V c 0 t) (iblk1 V c 1 t) (iblk1 V c 2 t)) _ _ _ j (((cfg1.win 3).blk t).view.emb j) ?_ ?_ ?_ ?_
  · intro d
    show V c main_arg1 (((cfg1.win 0).blk t).view.emb (ix3 (0 : Fin 1) (j 1) d)) = _
    refine congrArg (V c main_arg1) (funext fun a => Fin.ext ?_)
    have hj0 : (j 0).val < 1 := (j 0).isLt
    match a with
    | ⟨0, _⟩ => show win1_0.index t (0 : Fin 3) * 1 + 1 * 0 = win1_3.index t (0 : Fin 3) * 1 + 1 * (j 0).val; omega
    | ⟨1, _⟩ => show win1_0.index t (1 : Fin 3) * 256 + 1 * (j 1).val = win1_3.index t (1 : Fin 3) * 256 + 1 * (j 1).val; omega
    | ⟨2, _⟩ => show win1_0.index t (2 : Fin 3) * 1024 + 1 * d.val = d.val; omega
  · intro d e
    show V c main_v0 (((cfg1.win 1).blk t).view.emb (ix2 d e)) = _
    refine congrArg (V c main_v0) (funext fun a => Fin.ext ?_)
    match a with
    | ⟨0, _⟩ => show win1_1.index t (0 : Fin 2) * 1024 + 1 * d.val = d.val; omega
    | ⟨1, _⟩ => show win1_1.index t (1 : Fin 2) * 1024 + 1 * e.val = e.val; omega
  · intro e
    show V c main_arg4 (((cfg1.win 2).blk t).view.emb (ix1 e)) = _
    refine congrArg (V c main_arg4) (funext fun a => Fin.ext ?_)
    match a with
    | ⟨0, _⟩ => show win1_2.index t (0 : Fin 1) * 1024 + 1 * e.val = e.val; omega
  · show win1_3.index t (2 : Fin 3) * 1024 + 1 * (j 2).val = (j 2).val
    omega

/-- An index of the array is in point `t`'s block iff each coordinate is in the block's range on its axis. -/
theorem mem_blk (t : Fin cfg1.N) (i : S4x2048x1024.Idx) :
    i ∈ ((cfg1.win 3).blk t).view.set ↔ ∀ a : Fin 3, win1_3.index t a * S1x256x1024.size a ≤ (i a).val
      ∧ (i a).val < win1_3.index t a * S1x256x1024.size a + S1x256x1024.size a := by
  show i ∈ ((View.whole main_v3).slice (win1_3.rect t)).set ↔ _
  rw [View.set_slice_whole, Rect.mem_set_unit]
  exact Iff.rfl

/-- THE COVER: row (β, s) lies in the block of the point whose block index is (β, s / 256). -/
theorem cover (i : S4x2048x1024.Idx) :
    ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  obtain ⟨t, ht⟩ := index_onto ⟨(i 0).val, hi0⟩ ⟨(i 1).val / 256, by omega⟩
  have q0 : win1_3.index t (0 : Fin 3) = (i 0).val := congrFun ht 0
  have q1 : win1_3.index t (1 : Fin 3) = (i 1).val / 256 := congrFun ht 1
  have q2 : win1_3.index t (2 : Fin 3) = 0 := congrFun ht 2
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 256 ≤ (i 1).val ∧ (i 1).val < win1_3.index t (1 : Fin 3) * 256 + 256; omega
  | ⟨2, _⟩ => show win1_3.index t (2 : Fin 3) * 1024 ≤ (i 2).val ∧ (i 2).val < win1_3.index t (2 : Fin 3) * 1024 + 1024; omega

/-- THE ARRAY after the region: the linear layer of the region's input arrays as it found them. -/
theorem array_eq (c : Dev nD) :
    (dat1 V c).arrAt 3 cfg1.N = linear (V c main_arg1) (V c main_v0) (V c main_arg4) :=
  (dat1 V c).arrAt_eq_of_cover 3 _ (fun t _ => flushed_eq V c t) cover

end Cert.KernelIdeal.Region1

end
-- ==== Proof.RegionProj2.lean ====
/-
  Region 2 of @main: the value projection (stored in bf16, which at the extended reals is the same number).

  The region's grid is 4 × 8 and its output window's block at point (β, σ) is rows σ·256 … σ·256 + 255 of batch β, all
  1024 features; the activation window moves with it, and the weight and bias windows are the whole arrays at every
  point. So what point (β, σ) writes back is block (β, σ) of `linear X W b`, where X, W, b are the region's three
  input arrays as it finds them; the 32 blocks tile the [4, 2048, 1024] array (the block holding row s is σ = s / 256),
  so after the region the output array is `linear X W b`.
-/
import proofs.«147061_j49091476194121_2_alg».proof.Proof.Gen.KernelIdeal.Frame
import proofs.«147061_j49091476194121_2_alg».proof.Proof.PayloadProj
import proofs.«147061_j49091476194121_2_alg».proof.Proof.LinearBlock
import Idealize.ShloMosaic.Lib.Pipeline.Value

set_option maxRecDepth 16384

noncomputable section

namespace Cert.KernelIdeal.Region2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen Cert.Attention
open scoped BigOperators
open Cert.KernelIdeal.BodyValue

variable (V : (c : Dev nD) → (b : Ref sig .tc) → Buf (Elt Ideal) ((c : Thread nD τ).loc b))

/-- The printed index maps, decided over the 32 grid points: the activation window's block index is the output
    window's on the batch and position axes, every other block index is zero, and the output's block indices stay
    inside 4 × 8. -/
theorem index_facts : ∀ t : Fin cfg2.N,
    win2_0.index t (0 : Fin 3) = win2_3.index t (0 : Fin 3)
    ∧ win2_0.index t (1 : Fin 3) = win2_3.index t (1 : Fin 3)
    ∧ win2_0.index t (2 : Fin 3) = 0 ∧ win2_3.index t (2 : Fin 3) = 0
    ∧ win2_1.index t (0 : Fin 2) = 0 ∧ win2_1.index t (1 : Fin 2) = 0
    ∧ win2_2.index t (0 : Fin 1) = 0
    ∧ win2_3.index t (0 : Fin 3) ≤ 3 ∧ win2_3.index t (1 : Fin 3) ≤ 7 :=
  (by decide +kernel : ∀ t : Fin grid2.N, _)

/-- Every block of the 4 × 8 tiling is some point's. -/
theorem index_onto : ∀ (q0 : Fin 4) (q1 : Fin 8), ∃ t : Fin cfg2.N, win2_3.index t = ![q0.val, q1.val, 0] :=
  (by decide +kernel : ∀ (q0 : Fin 4) (q1 : Fin 8), ∃ t : Fin grid2.N, win2_3.index t = ![q0.val, q1.val, 0])

/-- WHAT POINT `t` WRITES BACK is block `t` of the linear layer of the region's input arrays. -/
theorem flushed_eq (c : Dev nD) (t : Fin cfg2.N) :
    (dat2 V c).flushed 3 t
      = ((cfg2.win 3).blk t).view.read (Elt Ideal) (linear (V c main_arg2) (V c main_v0) (V c main_arg4)) := by
  show (cfg2.win 3).cut (grid2.coords t) ((dat2 V c).after 3 t) = _
  rw [after2_3]
  unfold out2_3
  rw [View.canon_unit_zero zeros3]
  simp only [View.ld_unit_zero (S := S1x256x1024) zeros3, View.ld_unit_zero (S := S1024x1024) zeros2,
    View.ld_unit_zero (S := S1024) zeros1]
  obtain ⟨e0, e1, e2, e3, e4, e5, e6, e7, e8⟩ := index_facts t
  funext j
  refine linear_block_entry _ (iblk2 V c 0 t) (iblk2 V c 1 t) (iblk2 V c 2 t)
    (k2_pay1_apply (iblk2 V c 0 t) (iblk2 V c 1 t) (iblk2 V c 2 t)) _ _ _ j (((cfg2.win 3).blk t).view.emb j) ?_ ?_ ?_ ?_
  · intro d
    show V c main_arg2 (((cfg2.win 0).blk t).view.emb (ix3 (0 : Fin 1) (j 1) d)) = _
    refine congrArg (V c main_arg2) (funext fun a => Fin.ext ?_)
    have hj0 : (j 0).val < 1 := (j 0).isLt
    match a with
    | ⟨0, _⟩ => show win2_0.index t (0 : Fin 3) * 1 + 1 * 0 = win2_3.index t (0 : Fin 3) * 1 + 1 * (j 0).val; omega
    | ⟨1, _⟩ => show win2_0.index t (1 : Fin 3) * 256 + 1 * (j 1).val = win2_3.index t (1 : Fin 3) * 256 + 1 * (j 1).val; omega
    | ⟨2, _⟩ => show win2_0.index t (2 : Fin 3) * 1024 + 1 * d.val = d.val; omega
  · intro d e
    show V c main_v0 (((cfg2.win 1).blk t).view.emb (ix2 d e)) = _
    refine congrArg (V c main_v0) (funext fun a => Fin.ext ?_)
    match a with
    | ⟨0, _⟩ => show win2_1.index t (0 : Fin 2) * 1024 + 1 * d.val = d.val; omega
    | ⟨1, _⟩ => show win2_1.index t (1 : Fin 2) * 1024 + 1 * e.val = e.val; omega
  · intro e
    show V c main_arg4 (((cfg2.win 2).blk t).view.emb (ix1 e)) = _
    refine congrArg (V c main_arg4) (funext fun a => Fin.ext ?_)
    match a with
    | ⟨0, _⟩ => show win2_2.index t (0 : Fin 1) * 1024 + 1 * e.val = e.val; omega
  · show win2_3.index t (2 : Fin 3) * 1024 + 1 * (j 2).val = (j 2).val
    omega

/-- An index of the array is in point `t`'s block iff each coordinate is in the block's range on its axis. -/
theorem mem_blk (t : Fin cfg2.N) (i : S4x2048x1024.Idx) :
    i ∈ ((cfg2.win 3).blk t).view.set ↔ ∀ a : Fin 3, win2_3.index t a * S1x256x1024.size a ≤ (i a).val
      ∧ (i a).val < win2_3.index t a * S1x256x1024.size a + S1x256x1024.size a := by
  show i ∈ ((View.whole main_v4).slice (win2_3.rect t)).set ↔ _
  rw [View.set_slice_whole, Rect.mem_set_unit]
  exact Iff.rfl

/-- THE COVER: row (β, s) lies in the block of the point whose block index is (β, s / 256). -/
theorem cover (i : S4x2048x1024.Idx) :
    ∃ t : Fin cfg2.N, (cfg2.win 3).flush t = true ∧ i ∈ ((cfg2.win 3).blk t).view.set := by
  have hi0 : (i 0).val < 4 := (i 0).isLt
  have hi1 : (i 1).val < 2048 := (i 1).isLt
  have hi2 : (i 2).val < 1024 := (i 2).isLt
  obtain ⟨t, ht⟩ := index_onto ⟨(i 0).val, hi0⟩ ⟨(i 1).val / 256, by omega⟩
  have q0 : win2_3.index t (0 : Fin 3) = (i 0).val := congrFun ht 0
  have q1 : win2_3.index t (1 : Fin 3) = (i 1).val / 256 := congrFun ht 1
  have q2 : win2_3.index t (2 : Fin 3) = 0 := congrFun ht 2
  refine ⟨t, flush2_3 t, ?_⟩
  rw [mem_blk]
  intro a
  match a with
  | ⟨0, _⟩ => show win2_3.index t (0 : Fin 3) * 1 ≤ (i 0).val ∧ (i 0).val < win2_3.index t (0 : Fin 3) * 1 + 1; omega
  | ⟨1, _⟩ => show win2_3.index t (1 : Fin 3) * 256 ≤ (i 1).val ∧ (i 1).val < win2_3.index t (1 : Fin 3) * 256 + 256; omega
  | ⟨2, _⟩ => show win2_3.index t (2 : Fin 3) * 1024 ≤ (i 2).val ∧ (i 2).val < win2_3.index t (2 : Fin 3) * 1024 + 1024; omega

/-- THE ARRAY after the region: the linear layer of the region's input arrays as it found them. -/
theorem array_eq (c : Dev nD) :
    (dat2 V c).arrAt 3 cfg2.N = linear (V c main_arg2) (V c main_v0) (V c main_arg4) :=
  (dat2 V c).arrAt_eq_of_cover 3 _ (fun t _ => flushed_eq V c t) cover

end Cert.KernelIdeal.Region2

end
-- ==== Proof.Boundary.lean ====
/-
  The arrays each region reads, traced back to the launch memory.

  The buffer contents at the segment boundaries form a fold: the two bf16 casts of the weights first, then each region
  replacing its own arrays by what its write-backs leave and keeping every other buffer. Reading the fold at a buffer
  walks back to where that buffer was last written:
    * an argument array is never written, so at every boundary it holds its launch contents;
    * the cast weights hold, at the extended reals, the very numbers of the f32 weights (a change of float format is
      the identity), and no region writes them;
    * the projected queries, keys and values are written once, by regions 0, 1 and 2, and read by region 3.
  Hence the three projected arrays are `linear` of (query | key | value), `Wq`, `bq` at the launch contents, and the
  attention region finds exactly those three, the cast `Wo` and `bo`.
-/
import proofs.«147061_j49091476194121_2_alg».proof.Proof.Gen.KernelIdeal.Frame
import proofs.«147061_j49091476194121_2_alg».proof.Proof.RegionProj0
import proofs.«147061_j49091476194121_2_alg».proof.Proof.RegionProj1
import proofs.«147061_j49091476194121_2_alg».proof.Proof.RegionProj2
import Idealize.ShloMosaic.Lib.StableHlo.Run

set_option maxRecDepth 16384

noncomputable section

namespace Cert.KernelIdeal.Boundary

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen Cert.Attention
open scoped BigOperators

variable (m : (ℓ : Loc nD τ sig) → Buf (Elt Ideal) ℓ) (ρ : Dev nD → PrngReg)

/-- `linear` of equal arrays. -/
theorem linear_congr {X X' : Act.Idx → EReal} {W W' : Mat.Idx → EReal} {b b' : Bias.Idx → EReal}
    (hX : X = X') (hW : W = W') (hb : b = b') : linear X W b = linear X' W' b' := by
  subst hX hW hb; rfl

/-! ## After the host stretch -/

/-- The casts write only their two results: every other buffer holds its launch contents. -/
theorem W1_other (c : Dev nD) (b : Ref sig .tc) (h0 : b ≠ main_v0) (h1 : b ≠ main_v1) :
    W1 m ρ c (Proc.devRef .tc b) = m ((c : Thread nD τ).loc b) :=
  (StableHlo.after_of_forall_not_mem (b := Proc.devRef .tc b) _ _ (List.forall_iff_forall_mem.mp (by
      simp only [hostOps0, List.Forall, StableHlo.unary_writes, Finset.mem_singleton]
      exact ⟨StableHlo.devRef_ne_of_ne h0, StableHlo.devRef_ne_of_ne h1⟩))).trans rfl

/-- The cast projection weight holds the numbers of `Wq`. -/
theorem W1_v0 (c : Dev nD) :
    (V1 m ρ c main_v0 : Mat.Idx → EReal) = ((m ((c : Thread nD τ).loc main_arg3)) : Mat.Idx → EReal) := by
  show StableHlo.after hostOps0 (W0 m ρ c) (Proc.devRef .tc main_v0) = _
  after_results
  rfl

/-- The cast output weight holds the numbers of `Wo`. -/
theorem W1_v1 (c : Dev nD) :
    (V1 m ρ c main_v1 : Mat.Idx → EReal) = ((m ((c : Thread nD τ).loc main_arg5)) : Mat.Idx → EReal) := by
  show StableHlo.after hostOps0 (W0 m ρ c) (Proc.devRef .tc main_v1) = _
  after_results
  rfl

/-! ## Region 0: the projected queries -/

theorem query_array (c : Dev nD) :
    (V2 m ρ c main_v2 : Act.Idx → EReal) = linear (m ((c : Thread nD τ).loc main_arg0)) (m ((c : Thread nD τ).loc main_arg3)) (m ((c : Thread nD τ).loc main_arg4)) :=
  ((W2_arr m ρ c 3).trans (Region0.array_eq (V1 m ρ) c)).trans
    (linear_congr (W1_other m ρ c main_arg0 (by decide) (by decide)) (W1_v0 m ρ c)
      (W1_other m ρ c main_arg4 (by decide) (by decide)))

/-! ## Region 1: the projected keys -/

theorem V2_arg1 (c : Dev nD) : V2 m ρ c main_arg1 = (m ((c : Thread nD τ).loc main_arg1)) :=
  (W2_of_ne m ρ c main_arg1 (by decide)).trans (W1_other m ρ c main_arg1 (by decide) (by decide))
theorem V2_v0 (c : Dev nD) : (V2 m ρ c main_v0 : Mat.Idx → EReal) = ((m ((c : Thread nD τ).loc main_arg3)) : Mat.Idx → EReal) :=
  ((W2_arr m ρ c 1).trans (((dat0 (V1 m ρ) c).arrAt_in 1 rfl _).trans (A_eq0 (V1 m ρ) c 1))).trans (W1_v0 m ρ c)
theorem V2_arg4 (c : Dev nD) : V2 m ρ c main_arg4 = (m ((c : Thread nD τ).loc main_arg4)) :=
  ((W2_arr m ρ c 2).trans (((dat0 (V1 m ρ) c).arrAt_in 2 rfl _).trans (A_eq0 (V1 m ρ) c 2))).trans
    (W1_other m ρ c main_arg4 (by decide) (by decide))

theorem key_array (c : Dev nD) :
    (V3 m ρ c main_v3 : Act.Idx → EReal) = linear (m ((c : Thread nD τ).loc main_arg1)) (m ((c : Thread nD τ).loc main_arg3)) (m ((c : Thread nD τ).loc main_arg4)) :=
  ((W3_arr m ρ c 3).trans (Region1.array_eq (V2 m ρ) c)).trans
    (linear_congr (V2_arg1 m ρ c) (V2_v0 m ρ c) (V2_arg4 m ρ c))

/-! ## Region 2: the projected values -/

theorem V3_arg2 (c : Dev nD) : V3 m ρ c main_arg2 = (m ((c : Thread nD τ).loc main_arg2)) :=
  (W3_of_ne m ρ c main_arg2 (by decide)).trans ((W2_of_ne m ρ c main_arg2 (by decide)).trans
    (W1_other m ρ c main_arg2 (by decide) (by decide)))
theorem V3_v0 (c : Dev nD) : (V3 m ρ c main_v0 : Mat.Idx → EReal) = ((m ((c : Thread nD τ).loc main_arg3)) : Mat.Idx → EReal) :=
  ((W3_arr m ρ c 1).trans (((dat1 (V2 m ρ) c).arrAt_in 1 rfl _).trans (A_eq1 (V2 m ρ) c 1))).trans (V2_v0 m ρ c)
theorem V3_arg4 (c : Dev nD) : V3 m ρ c main_arg4 = (m ((c : Thread nD τ).loc main_arg4)) :=
  ((W3_arr m ρ c 2).trans (((dat1 (V2 m ρ) c).arrAt_in 2 rfl _).trans (A_eq1 (V2 m ρ) c 2))).trans (V2_arg4 m ρ c)

theorem value_array (c : Dev nD) :
    (V4 m ρ c main_v4 : Act.Idx → EReal) = linear (m ((c : Thread nD τ).loc main_arg2)) (m ((c : Thread nD τ).loc main_arg3)) (m ((c : Thread nD τ).loc main_arg4)) :=
  ((W4_arr m ρ c 3).trans (Region2.array_eq (V3 m ρ) c)).trans
    (linear_congr (V3_arg2 m ρ c) (V3_v0 m ρ c) (V3_arg4 m ρ c))

/-! ## What the attention region finds -/

theorem V4_v2 (c : Dev nD) :
    (V4 m ρ c main_v2 : Act.Idx → EReal) = linear (m ((c : Thread nD τ).loc main_arg0)) (m ((c : Thread nD τ).loc main_arg3)) (m ((c : Thread nD τ).loc main_arg4)) :=
  (W4_of_ne m ρ c main_v2 (by decide)).trans ((W3_of_ne m ρ c main_v2 (by decide)).trans (query_array m ρ c))
theorem V4_v3 (c : Dev nD) :
    (V4 m ρ c main_v3 : Act.Idx → EReal) = linear (m ((c : Thread nD τ).loc main_arg1)) (m ((c : Thread nD τ).loc main_arg3)) (m ((c : Thread nD τ).loc main_arg4)) :=
  (W4_of_ne m ρ c main_v3 (by decide)).trans (key_array m ρ c)
theorem V4_v1 (c : Dev nD) : (V4 m ρ c main_v1 : Mat.Idx → EReal) = ((m ((c : Thread nD τ).loc main_arg5)) : Mat.Idx → EReal) :=
  (W4_of_ne m ρ c main_v1 (by decide)).trans ((W3_of_ne m ρ c main_v1 (by decide)).trans
    ((W2_of_ne m ρ c main_v1 (by decide)).trans (W1_v1 m ρ c)))
theorem V4_arg6 (c : Dev nD) : V4 m ρ c main_arg6 = (m ((c : Thread nD τ).loc main_arg6)) :=
  (W4_of_ne m ρ c main_arg6 (by decide)).trans ((W3_of_ne m ρ c main_arg6 (by decide)).trans
    ((W2_of_ne m ρ c main_arg6 (by decide)).trans (W1_other m ρ c main_arg6 (by decide) (by decide))))

end Cert.KernelIdeal.Boundary

end
-- ==== Proof.AttnBlock.lean ====
/-
  One block of the attention layer: 256 query rows of one batch element against all 2048 keys.

  A block holds the 256 projected query rows `q` (shape [1, 256, 1024]) and the 2048 projected key rows `k` and value
  rows `v` (shape [1, 2048, 1024]) of one batch element. Its scores, row maxima, shifted exponentials, row sums and
  weights are the layer's own formulas written over the block's rows:

    blkScore   at (r, t) :  Σ_e q(0, r, e) · k(0, t, e)
    blkMax     at r      :  max_t blkScore(r, t), folded from −∞
    blkExp     at (r, t) :  exp(blkScore(r, t) − blkMax(r))
    blkSum     at r      :  Σ_t blkExp(r, t)
    blkWeights at (r, t) :  blkExp(r, t) / blkSum(r)

  When row r of the block is row (β, s) of the layer's queries and the block's keys are the layer's keys of batch β,
  every one of these is the layer's quantity at (β, s): the sums, the fold and the quotient have equal terms. The same
  holds for the block's output row, the weighted average of the values pushed through the output projection.
-/
import proofs.«147061_j49091476194121_2_alg».proof.Proof.Spec

noncomputable section

namespace Cert.Attention

open Idealize.ShloMosaic Idealize.ShloMosaic.ValueIdx
open scoped BigOperators

/-- A block of query rows: one batch element × 256 positions × feature. -/
abbrev S1q : Shape := ⟨3, ![1, 256, 1024]⟩
/-- A batch element's key or value rows: one batch element × 2048 positions × feature. -/
abbrev S1k : Shape := ⟨3, ![1, 2048, 1024]⟩

/-- The block's score of query row r against key t. -/
def blkScore (q : S1q.Idx → EReal) (k : S1k.Idx → EReal) (r : Fin 256) (t : Fin 2048) : EReal :=
  ∑ e : Fin 1024, q (ix3 (0 : Fin 1) r e) * k (ix3 (0 : Fin 1) t e)

/-- The maximum of row r of the block's scores, folded from −∞. -/
def blkMax (q : S1q.Idx → EReal) (k : S1k.Idx → EReal) (r : Fin 256) : EReal :=
  (Finset.univ : Finset (Fin 2048)).fold max negInf (fun t => blkScore q k r t)

/-- The block's shifted exponential at (r, t). -/
def blkExp (q : S1q.Idx → EReal) (k : S1k.Idx → EReal) (r : Fin 256) (t : Fin 2048) : EReal :=
  Ideal.exp (blkScore q k r t - blkMax q k r)

/-- The normaliser of row r of the block. -/
def blkSum (q : S1q.Idx → EReal) (k : S1k.Idx → EReal) (r : Fin 256) : EReal :=
  ∑ t : Fin 2048, blkExp q k r t

/-- The block's attention weight at (r, t). -/
def blkWeights (q : S1q.Idx → EReal) (k : S1k.Idx → EReal) (r : Fin 256) (t : Fin 2048) : EReal :=
  Ideal.div (blkExp q k r t) (blkSum q k r)

/-! ## The block against the layer

Throughout, row r of the block is row (β, s) of the layer's queries `Q`, and the block's keys are the layer's keys `K`
of batch β. -/

/-- The block's score is the layer's score at (β, s, t): the two sums have equal terms. -/
theorem blkScore_eq (q : S1q.Idx → EReal) (k : S1k.Idx → EReal) (Q K : Act.Idx → EReal) (β : Fin 4) (s : Fin 2048)
    (r : Fin 256) (t : Fin 2048) (hq : ∀ e : Fin 1024, q (ix3 (0 : Fin 1) r e) = Q (ix3 β s e))
    (hk : ∀ (t : Fin 2048) (e : Fin 1024), k (ix3 (0 : Fin 1) t e) = K (ix3 β t e)) :
    blkScore q k r t = score Q K (ix3 β s t) :=
  Finset.sum_congr rfl fun e _ => by rw [hq e, hk t e]

/-- The block's row maximum is the layer's at (β, s): the two folds run over equal functions. -/
theorem blkMax_eq (q : S1q.Idx → EReal) (k : S1k.Idx → EReal) (Q K : Act.Idx → EReal) (β : Fin 4) (s : Fin 2048)
    (r : Fin 256) (hq : ∀ e : Fin 1024, q (ix3 (0 : Fin 1) r e) = Q (ix3 β s e))
    (hk : ∀ (t : Fin 2048) (e : Fin 1024), k (ix3 (0 : Fin 1) t e) = K (ix3 β t e)) :
    blkMax q k r = rowMax (score Q K) β s :=
  congrArg (fun g : Fin 2048 → EReal => (Finset.univ : Finset (Fin 2048)).fold max negInf g)
    (funext fun t => blkScore_eq q k Q K β s r t hq hk)

/-- The block's shifted exponential is the layer's at (β, s, t). -/
theorem blkExp_eq (q : S1q.Idx → EReal) (k : S1k.Idx → EReal) (Q K : Act.Idx → EReal) (β : Fin 4) (s : Fin 2048)
    (r : Fin 256) (t : Fin 2048) (hq : ∀ e : Fin 1024, q (ix3 (0 : Fin 1) r e) = Q (ix3 β s e))
    (hk : ∀ (t : Fin 2048) (e : Fin 1024), k (ix3 (0 : Fin 1) t e) = K (ix3 β t e)) :
    blkExp q k r t = expShift (score Q K) (ix3 β s t) :=
  congrArg₂ (fun a b : EReal => Ideal.exp (a - b)) (blkScore_eq q k Q K β s r t hq hk) (blkMax_eq q k Q K β s r hq hk)

/-- The block's row sum is the layer's at (β, s). -/
theorem blkSum_eq (q : S1q.Idx → EReal) (k : S1k.Idx → EReal) (Q K : Act.Idx → EReal) (β : Fin 4) (s : Fin 2048)
    (r : Fin 256) (hq : ∀ e : Fin 1024, q (ix3 (0 : Fin 1) r e) = Q (ix3 β s e))
    (hk : ∀ (t : Fin 2048) (e : Fin 1024), k (ix3 (0 : Fin 1) t e) = K (ix3 β t e)) :
    blkSum q k r = rowSum (score Q K) β s :=
  Finset.sum_congr rfl fun t _ => blkExp_eq q k Q K β s r t hq hk

/-- The block's weight at (r, t) is the layer's softmax at (β, s, t). -/
theorem weights_block_entry (q : S1q.Idx → EReal) (k : S1k.Idx → EReal) (Q K : Act.Idx → EReal) (β : Fin 4)
    (s : Fin 2048) (r : Fin 256) (t : Fin 2048) (hq : ∀ e : Fin 1024, q (ix3 (0 : Fin 1) r e) = Q (ix3 β s e))
    (hk : ∀ (t : Fin 2048) (e : Fin 1024), k (ix3 (0 : Fin 1) t e) = K (ix3 β t e)) :
    blkWeights q k r t = softmax (score Q K) (ix3 β s t) :=
  congrArg₂ Ideal.div (blkExp_eq q k Q K β s r t hq hk) (blkSum_eq q k Q K β s r hq hk)

/-- The block's output row — the weighted average of the values, through the output projection — is the layer's
    output at (β, s, f). -/
theorem output_block_entry (q : S1q.Idx → EReal) (k : S1k.Idx → EReal) (v : S1k.Idx → EReal) (wo : Mat.Idx → EReal)
    (bo : Bias.Idx → EReal) (Q K Vp : Act.Idx → EReal) (Wo : Mat.Idx → EReal) (Bo : Bias.Idx → EReal) (β : Fin 4)
    (s : Fin 2048) (r : Fin 256) (f : Fin 1024) (hq : ∀ e : Fin 1024, q (ix3 (0 : Fin 1) r e) = Q (ix3 β s e))
    (hk : ∀ (t : Fin 2048) (e : Fin 1024), k (ix3 (0 : Fin 1) t e) = K (ix3 β t e))
    (hv : ∀ (t : Fin 2048) (e : Fin 1024), v (ix3 (0 : Fin 1) t e) = Vp (ix3 β t e))
    (hwo : ∀ e f : Fin 1024, wo (ix2 e f) = Wo (ix2 e f)) (hbo : ∀ f : Fin 1024, bo (ix1 f) = Bo (ix1 f)) :
    (∑ e : Fin 1024, (∑ t : Fin 2048, blkWeights q k r t * v (ix3 (0 : Fin 1) t e)) * wo (ix2 e f)) + bo (ix1 f)
      = linear (context (softmax (score Q K)) Vp) Wo Bo (ix3 β s f) :=
  congrArg₂ (fun a b : EReal => a + b)
    (Finset.sum_congr rfl fun e _ =>
      congrArg₂ (fun a b : EReal => a * b)
        (Finset.sum_congr rfl fun t _ =>
          congrArg₂ (fun a b : EReal => a * b) (weights_block_entry q k Q K β s r t hq hk) (hv t e))
        (hwo e f))
    (hbo f)

end Cert.Attention

end
-- ==== Proof.LibColumn.lean ====
/-
  Column forms of the layout operations, read at an index written by coordinates.

  A sum along the rows of an `[a, b]` array taken with the reduced axis kept leaves an `[a]` vector that is
  re-laid as an `[a, 1]` column and then spread back over the `b` columns. These are the two readings that
  step needs: the column at `(i, u)` is the vector at `i`, and the spread column at `(p, c)` is the column at
  `(p, 0)`, whatever the extents. They complement the row forms (`[a] → [1, a]`, `[1, b] → [a, b]`) of the
  library's layout lemmas.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.PayloadAttn.lean ====
/-
  The attention body at an entry.

  One grid point of the attention region loads a [1, 256, 1024] block of projected queries, the [1, 2048, 1024]
  projected keys and values of the same batch element, the output weight and the output bias. It forms the scores
  `q · kᵀ` (the keys transposed, then a plain matrix product into zero), takes the softmax along each row — the row
  maximum by a lane reduction from −∞, re-laid as a column and spread back over the row; the difference; the exponential;
  the row sum by a lane reduction from zero, again as a spread column; the quotient — and stores the weights, and the
  weights times the values, times the output weight, plus the bias. Read at an entry, each of these is the block
  formula of the same name: the layout operations read through to the operands, the changes of float format are the
  identity at the extended reals, and each product into a zero accumulator is the plain sum.
-/
import proofs.«147061_j49091476194121_2_alg».proof.Proof.Gen.KernelIdeal.Skeleton
import proofs.«147061_j49091476194121_2_alg».proof.Proof.PayloadProj
import proofs.«147061_j49091476194121_2_alg».proof.Proof.AttnBlock
import proofs.«147061_j49091476194121_2_alg».proof.Proof.LibColumn
import proofs.«147061_j49091476194121_2_alg».proof.Proof.LibPlainMatmul
import Idealize.ShloMosaic.Lib.ValueLayout
import Idealize.ShloMosaic.Lib.Pipeline.Value
import Idealize.ShloMosaic.PureOps.Ideal.Laws

noncomputable section

namespace Cert.KernelIdeal.BodyValue

open Idealize.ShloMosaic Idealize.ShloMosaic.ValueIdx Cert.KernelIdeal Cert.KernelIdeal.Gen
open scoped BigOperators

/-! ## The [256, 1024] × [1024, 2048] product's operand indices (queries against transposed keys) -/

theorem dotRowsKeysT_l0 (i : S256x2048.Idx) (q : dot_S256x1024_S1024x2048_S256x2048_1_0_0_1_n_n.contr.Idx) : (dot_S256x1024_S1024x2048_S256x2048_1_0_0_1_n_n.lhsIdx i q 0).val = (i 0).val := by
  unfold DotDims.lhsIdx
  rw [dif_neg (show ¬(0 : Fin S256x1024.rank) ∈ dot_S256x1024_S1024x2048_S256x2048_1_0_0_1_n_n.lhsBatch by decide), dif_pos (show (0 : Fin S256x1024.rank) ∈ dot_S256x1024_S1024x2048_S256x2048_1_0_0_1_n_n.lhsNonContracting by decide)]
  rfl
theorem dotRowsKeysT_l1 (i : S256x2048.Idx) (q : dot_S256x1024_S1024x2048_S256x2048_1_0_0_1_n_n.contr.Idx) : (dot_S256x1024_S1024x2048_S256x2048_1_0_0_1_n_n.lhsIdx i q 1).val = (q ⟨0, by decide⟩).val :=
  dot_S256x1024_S1024x2048_S256x2048_1_0_0_1_n_n.lhsIdx_val_of_single rfl i q
theorem dotRowsKeysT_r0 (i : S256x2048.Idx) (q : dot_S256x1024_S1024x2048_S256x2048_1_0_0_1_n_n.contr.Idx) : (dot_S256x1024_S1024x2048_S256x2048_1_0_0_1_n_n.rhsIdx i q 0).val = (q ⟨0, by decide⟩).val :=
  dot_S256x1024_S1024x2048_S256x2048_1_0_0_1_n_n.rhsIdx_val_of_single rfl i q
theorem dotRowsKeysT_r1 (i : S256x2048.Idx) (q : dot_S256x1024_S1024x2048_S256x2048_1_0_0_1_n_n.contr.Idx) : (dot_S256x1024_S1024x2048_S256x2048_1_0_0_1_n_n.rhsIdx i q 1).val = (i 1).val := by
  unfold DotDims.rhsIdx
  rw [dif_neg (show ¬(1 : Fin S1024x2048.rank) ∈ dot_S256x1024_S1024x2048_S256x2048_1_0_0_1_n_n.rhsBatch by decide), dif_pos (show (1 : Fin S1024x2048.rank) ∈ dot_S256x1024_S1024x2048_S256x2048_1_0_0_1_n_n.rhsNonContracting by decide)]
  rfl

/-- A [256, 1024] block times a [1024, 2048] matrix, into zero, at (r, t): the sum over d of block(r, d) · M(d, t). -/
theorem rowsKeysT_apply {φ₁ φ₂ : FTy} (prec : Option ContractPrecision) (lhs : FVec Ideal S256x1024 φ₁)
    (rhs : FVec Ideal S1024x2048 φ₂) (r : Fin 256) (t : Fin 2048) :
    matmul dot_S256x1024_S1024x2048_S256x2048_1_0_0_1_n_n prec lhs rhs (constant S256x2048 .f32 0x00000000#32) (ix2 r t)
      = ∑ d : Fin 1024, lhs (ix2 r d) * rhs (ix2 d t) :=
  Cert.LibPlainMatmul.matmul_zero_ix2 dot_S256x1024_S1024x2048_S256x2048_1_0_0_1_n_n prec rfl rfl
    dotRowsKeysT_l0 dotRowsKeysT_l1 dotRowsKeysT_r0 dotRowsKeysT_r1 lhs rhs r t

/-! ## The [256, 2048] × [2048, 1024] product's operand indices (weights against values) -/

theorem dotRowsValues_l0 (i : S256x1024.Idx) (q : dot_S256x2048_S2048x1024_S256x1024_1_0_0_1_n_n.contr.Idx) : (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
theorem dotRowsValues_l1 (i : S256x1024.Idx) (q : dot_S256x2048_S2048x1024_S256x1024_1_0_0_1_n_n.contr.Idx) : (dot_S256x2048_S2048x1024_S256x1024_1_0_0_1_n_n.lhsIdx i q 1).val = (q ⟨0, by decide⟩).val :=
  dot_S256x2048_S2048x1024_S256x1024_1_0_0_1_n_n.lhsIdx_val_of_single rfl i q
theorem dotRowsValues_r0 (i : S256x1024.Idx) (q : dot_S256x2048_S2048x1024_S256x1024_1_0_0_1_n_n.contr.Idx) : (dot_S256x2048_S2048x1024_S256x1024_1_0_0_1_n_n.rhsIdx i q 0).val = (q ⟨0, by decide⟩).val :=
  dot_S256x2048_S2048x1024_S256x1024_1_0_0_1_n_n.rhsIdx_val_of_single rfl i q
theorem dotRowsValues_r1 (i : S256x1024.Idx) (q : dot_S256x2048_S2048x1024_S256x1024_1_0_0_1_n_n.contr.Idx) : (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl

/-- A [256, 2048] block times a [2048, 1024] matrix, into zero, at (r, e): the sum over t of block(r, t) · V(t, e). -/
theorem rowsValues_apply {φ₁ φ₂ : FTy} (prec : Option ContractPrecision) (lhs : FVec Ideal S256x2048 φ₁)
    (rhs : FVec Ideal S2048x1024 φ₂) (r : Fin 256) (e : Fin 1024) :
    matmul dot_S256x2048_S2048x1024_S256x1024_1_0_0_1_n_n prec lhs rhs (constant S256x1024 .f32 0x00000000#32) (ix2 r e)
      = ∑ t : Fin 2048, lhs (ix2 r t) * rhs (ix2 t e) :=
  Cert.LibPlainMatmul.matmul_zero_ix2 dot_S256x2048_S2048x1024_S256x1024_1_0_0_1_n_n prec rfl rfl
    dotRowsValues_l0 dotRowsValues_l1 dotRowsValues_r0 dotRowsValues_r1 lhs rhs r e

/-! ## The scores -/

/-- The body's score matrix: the query block times the transposed key block, into zero. -/
def scoreBlock (x0 : Vec Ideal S1x256x1024 .f32) (x2 : Vec Ideal S1x2048x1024 .f32) : FVec Ideal S256x2048 .f32 :=
  matmul dot_S256x1024_S1024x2048_S256x2048_1_0_0_1_n_n (some .fp32)
    (shapeCast S256x1024 x0 shapeCasts_S1x256x1024_S256x1024 : FVec Ideal S256x1024 .f32)
    (transpose S1024x2048 [1, 0] (shapeCast S2048x1024 x2 shapeCasts_S1x2048x1024_S2048x1024 : FVec Ideal S2048x1024 .f32)
      transposes_S2048x1024_p1_0_S1024x2048 : FVec Ideal S1024x2048 .f32)
    (constant S256x2048 .f32 0x00000000#32)

/-- At (r, t) the score matrix is the block score: the sum over the features of q(0, r, e) · k(0, t, e). -/
theorem scoreBlock_apply (x0 : Vec Ideal S1x256x1024 .f32) (x2 : Vec Ideal S1x2048x1024 .f32) (r : Fin 256)
    (t : Fin 2048) : scoreBlock x0 x2 (ix2 r t) = Cert.Attention.blkScore x0 x2 r t := by
  unfold scoreBlock
  rw [rowsKeysT_apply]
  refine Finset.sum_congr rfl fun e _ => ?_
  rw [shapeCast_1ab_ab_apply, transpose_ix2_apply, shapeCast_1ab_ab_apply]

/-! ## The softmax along the rows -/

/-- Row r with key position k put back on the dropped axis is (r, k). -/
theorem lift_row (r : Fin 256) (k : Fin (S256x2048.size 1)) :
    reduces_S256x2048_S256.lift (ix1 r) k = ix2 r (⟨k.val, k.isLt⟩ : Fin 2048) := by
  funext c; apply Fin.ext
  fin_cases c <;> rfl

/-- The lane maximum from −∞ of a [256, 2048] array, at row r: the fold of `max` from −∞ over the row. -/
theorem laneMax_apply (S : FVec Ideal S256x2048 .f32) (hφ : FKind.Formats .f32)
    (hacc : (0xFF800000#32 : BitVec 32) = 0xFF800000#32) (r : Fin 256) :
    multiReduction (F := Ideal) .maximumf [1] S256 S 0xFF800000#32 reduces_S256x2048_S256 hφ hacc (ix1 r)
      = (Finset.univ : Finset (Fin 2048)).fold max Cert.Attention.negInf (fun t => S (ix2 r t)) := by
  refine (Ideal.multiReduction_maximumf_single S 0xFF800000#32 reduces_S256x2048_S256 hφ hacc (ix1 r)).trans ?_
  exact congrArg (fun g : Fin 2048 → EReal => (Finset.univ : Finset (Fin 2048)).fold max Cert.Attention.negInf g)
    (funext fun k => congrArg S (lift_row r k))

/-- The lane sum from zero of a [256, 2048] array, at row r: the sum over the row. -/
theorem laneSum_apply (S : FVec Ideal S256x2048 .f32) (hφ : FKind.Formats .f32)
    (hacc : (0x00000000#32 : BitVec 32) = 0x00000000#32) (r : Fin 256) :
    multiReduction (F := Ideal) .add [1] S256 S 0x00000000#32 reduces_S256x2048_S256 hφ hacc (ix1 r)
      = ∑ t : Fin 2048, S (ix2 r t) := by
  refine (Ideal.multiReduction_add_single S 0x00000000#32 reduces_S256x2048_S256 hφ hacc (ix1 r)).trans ?_
  exact Finset.sum_congr rfl fun k _ => congrArg S (lift_row r k)

/-- The exponential of an array, at an index. -/
theorem exp_at {s : Shape} {φ : FTy} (a : FVec Ideal s φ) (i : s.Idx) : exp a i = Ideal.exp (a i) := rfl

/-- The body's shifted exponentials of a score matrix: each row minus its maximum (a spread column), exponentiated. -/
def shiftExpRows (S : FVec Ideal S256x2048 .f32) : FVec Ideal S256x2048 .f32 :=
  exp (subf S (broadcastTo S256x2048
    (shapeCast S256x1 (multiReduction .maximumf [1] S256 S 0xFF800000#32 reduces_S256x2048_S256 (.inl rfl) rfl : FVec Ideal S256 .f32)
      shapeCasts_S256_S256x1 : FVec Ideal S256x1 .f32) broadcasts_S256x1_S256x2048))

/-- At (r, t): the exponential of the entry minus the row's maximum. -/
theorem shiftExpRows_apply (S : FVec Ideal S256x2048 .f32) (r : Fin 256) (t : Fin 2048) :
    shiftExpRows S (ix2 r t)
      = Ideal.exp (S (ix2 r t) - (Finset.univ : Finset (Fin 2048)).fold max Cert.Attention.negInf (fun t' => S (ix2 r t'))) := by
  unfold shiftExpRows
  rw [exp_at, subf_apply, Cert.LibColumn.broadcastTo_a1_ab_apply, Cert.LibColumn.shapeCast_a_a1_apply, laneMax_apply]

/-- The body's softmax of a score matrix: the shifted exponentials over their row sums (a spread column). -/
def softmaxRows (S : FVec Ideal S256x2048 .f32) : FVec Ideal S256x2048 .f32 :=
  divf (shiftExpRows S) (broadcastTo S256x2048
    (shapeCast S256x1 (multiReduction .add [1] S256 (shiftExpRows S) 0x00000000#32 reduces_S256x2048_S256 (.inl rfl) rfl : FVec Ideal S256 .f32)
      shapeCasts_S256_S256x1 : FVec Ideal S256x1 .f32) broadcasts_S256x1_S256x2048)

/-- At (r, t): the shifted exponential over the sum of the row's shifted exponentials. -/
theorem softmaxRows_apply (S : FVec Ideal S256x2048 .f32) (r : Fin 256) (t : Fin 2048) :
    softmaxRows S (ix2 r t) = Ideal.div (shiftExpRows S (ix2 r t)) (∑ t' : Fin 2048, shiftExpRows S (ix2 r t')) := by
  unfold softmaxRows
  rw [divf_apply, Cert.LibColumn.broadcastTo_a1_ab_apply, Cert.LibColumn.shapeCast_a_a1_apply, laneSum_apply]

/-! ## The three stored values -/

/-- The body's weights are the softmax along the rows of its score matrix (the same term, with the intermediate
    values named). -/
theorem k3_pay1_eq (x0 : Vec Ideal S1x256x1024 .f32) (x2 : Vec Ideal S1x2048x1024 .f32) :
    k3_pay1 (F := Ideal) x0 x2 = softmaxRows (scoreBlock x0 x2) := rfl

/-- The body's weights at (r, t) are the block weights. -/
theorem k3_pay1_apply (x0 : Vec Ideal S1x256x1024 .f32) (x2 : Vec Ideal S1x2048x1024 .f32) (r : Fin 256) (t : Fin 2048) :
    k3_pay1 (F := Ideal) x0 x2 (ix2 r t) = Cert.Attention.blkWeights x0 x2 r t := by
  rw [k3_pay1_eq, softmaxRows_apply]
  simp only [shiftExpRows_apply, scoreBlock_apply]
  rfl

/-- The stored weights, re-laid with a leading unit axis, at (u, r, t). -/
theorem k3_pay2_apply (x0 : Vec Ideal S1x256x1024 .f32) (x2 : Vec Ideal S1x2048x1024 .f32) (u : Fin 1) (r : Fin 256)
    (t : Fin 2048) : k3_pay2 (F := Ideal) x0 x2 (ix3 u r t) = Cert.Attention.blkWeights x0 x2 r t := by
  unfold k3_pay2
  rw [shapeCast_ab_1ab_apply, k3_pay1_apply]

/-- The stored output at (u, r, f): the weights times the values, times the output weight, plus the bias. -/
theorem k3_pay3_apply (x0 : Vec Ideal S1x256x1024 .f32) (x2 : Vec Ideal S1x2048x1024 .f32)
    (x4 : Vec Ideal S1x2048x1024 .bf16) (x22 : Vec Ideal S1024x1024 .bf16) (x26 : Vec Ideal S1024 .f32)
    (u : Fin 1) (r : Fin 256) (f : Fin 1024) :
    k3_pay3 (F := Ideal) x0 x2 x4 x22 x26 (ix3 u r f)
      = (∑ e : Fin 1024, (∑ t : Fin 2048, Cert.Attention.blkWeights x0 x2 r t * x4 (ix3 (0 : Fin 1) t e)) * x22 (ix2 e f))
        + x26 (ix1 f) := by
  unfold k3_pay3
  rw [shapeCast_ab_1ab_apply, addf_apply, rowsWeight_apply, broadcastTo_1b_ab_apply, shapeCast_a_1a_apply]
  simp only [truncf_apply, rowsValues_apply, shapeCast_1ab_ab_apply, shapeCast_self, k3_pay1_apply]

end Cert.KernelIdeal.BodyValue

end
-- ==== Proof.AttnEntry.lean ====
/-
  One block of the attention region is the attention layer restricted to the block's rows.

  Grid point (β, σ) of the attention region holds the 256 query rows σ·256 … σ·256 + 255 of batch β and ALL 2048 key and
  value rows of batch β. A row's softmax weights depend only on that query row and on the batch's keys, and its output
  only on those weights, the batch's values and the output projection, so each stored entry of the block is the layer's
  entry at the corresponding array index. These two lemmas say so for a block given as plain functions, with the
  block's index `j` and the array's index `i` tied by hypotheses on the rows they name.
-/
import proofs.«147061_j49091476194121_2_alg».proof.Proof.AttnBlock

noncomputable section

namespace Cert.Attention

open Idealize.ShloMosaic Idealize.ShloMosaic.ValueIdx
open scoped BigOperators

/-- A [1, 256, 2048] block whose entry (u, r, t) is the block's softmax weight of query row r against key row t, read
    at `j`, is the layer's weight at `i`, when query row `j 1` of the block is row `(i 0, i 1)` of `Q`, the block's keys
    are batch `i 0` of `K`, and the two indices name the same key position. -/
theorem weights_entry (pay : (⟨3, ![1, 256, 2048]⟩ : Shape).Idx → EReal)
    (q : (⟨3, ![1, 256, 1024]⟩ : Shape).Idx → EReal) (k : (⟨3, ![1, 2048, 1024]⟩ : Shape).Idx → EReal)
    (hpay : ∀ (u : Fin 1) (r : Fin 256) (t : Fin 2048), pay (ix3 u r t) = blkWeights q k r t)
    (Q K : Act.Idx → EReal) (j : (⟨3, ![1, 256, 2048]⟩ : Shape).Idx) (i : Att.Idx)
    (hq : ∀ e : Fin 1024, q (ix3 (0 : Fin 1) (j 1) e) = Q (ix3 (i 0) (i 1) e))
    (hk : ∀ (t : Fin 2048) (e : Fin 1024), k (ix3 (0 : Fin 1) t e) = K (ix3 (i 0) t e))
    (hi : (i 2).val = (j 2).val) :
    pay j = softmax (score Q K) i := by
  obtain ⟨u, r, t, rfl⟩ : ∃ (u : Fin 1) (r : Fin 256) (t : Fin 2048), j = ix3 u r t := ⟨j 0, j 1, j 2, eq_ix3 j⟩
  obtain ⟨β, s, t', rfl⟩ : ∃ (β : Fin 4) (s : Fin 2048) (t' : Fin 2048), i = ix3 β s t' := ⟨i 0, i 1, i 2, eq_ix3 i⟩
  have hq' : ∀ e : Fin 1024, q (ix3 (0 : Fin 1) r e) = Q (ix3 β s e) := hq
  have hk' : ∀ (t : Fin 2048) (e : Fin 1024), k (ix3 (0 : Fin 1) t e) = K (ix3 β t e) := hk
  have ht : t' = t := Fin.ext hi
  subst ht
  rw [hpay]
  exact weights_block_entry q k Q K β s r t' hq' hk'

/-- A [1, 256, 1024] block whose entry (u, r, f) is `Σ_e (Σ_t w(r, t) · v(0, t, e)) · wo(e, f) + bo(f)` with `w` the
    block's softmax weights, read at `j`, is the layer's output at `i`, under the same row hypotheses, the block's
    values being batch `i 0` of `Vp`, and `wo`, `bo` being `Wo`, `Bo`. -/
theorem output_entry (pay : (⟨3, ![1, 256, 1024]⟩ : Shape).Idx → EReal)
    (q : (⟨3, ![1, 256, 1024]⟩ : Shape).Idx → EReal) (k v : (⟨3, ![1, 2048, 1024]⟩ : Shape).Idx → EReal)
    (wo : Mat.Idx → EReal) (bo : Bias.Idx → EReal)
    (hpay : ∀ (u : Fin 1) (r : Fin 256) (f : Fin 1024), pay (ix3 u r f)
      = (∑ e : Fin 1024, (∑ t : Fin 2048, blkWeights q k r t * v (ix3 (0 : Fin 1) t e)) * wo (ix2 e f)) + bo (ix1 f))
    (Q K Vp : Act.Idx → EReal) (Wo : Mat.Idx → EReal) (Bo : Bias.Idx → EReal)
    (j : (⟨3, ![1, 256, 1024]⟩ : Shape).Idx) (i : Act.Idx)
    (hq : ∀ e : Fin 1024, q (ix3 (0 : Fin 1) (j 1) e) = Q (ix3 (i 0) (i 1) e))
    (hk : ∀ (t : Fin 2048) (e : Fin 1024), k (ix3 (0 : Fin 1) t e) = K (ix3 (i 0) t e))
    (hv : ∀ (t : Fin 2048) (e : Fin 1024), v (ix3 (0 : Fin 1) t e) = Vp (ix3 (i 0) t e))
    (hwo : ∀ e f : Fin 1024, wo (ix2 e f) = Wo (ix2 e f)) (hbo : ∀ f : Fin 1024, bo (ix1 f) = Bo (ix1 f))
    (hi : (i 2).val = (j 2).val) :
    pay j = linear (context (softmax (score Q K)) Vp) Wo Bo i := by
  obtain ⟨u, r, f, rfl⟩ : ∃ (u : Fin 1) (r : Fin 256) (f : Fin 1024), j = ix3 u r f := ⟨j 0, j 1, j 2, eq_ix3 j⟩
  obtain ⟨β, s, f', rfl⟩ : ∃ (β : Fin 4) (s : Fin 2048) (f' : Fin 1024), i = ix3 β s f' := ⟨i 0, i 1, i 2, eq_ix3 i⟩
  have hq' : ∀ e : Fin 1024, q (ix3 (0 : Fin 1) r e) = Q (ix3 β s e) := hq
  have hk' : ∀ (t : Fin 2048) (e : Fin 1024), k (ix3 (0 : Fin 1) t e) = K (ix3 β t e) := hk
  have hv' : ∀ (t : Fin 2048) (e : Fin 1024), v (ix3 (0 : Fin 1) t e) = Vp (ix3 β t e) := hv
  have hf : f' = f := Fin.ext hi
  subst hf
  rw [hpay]
  exact output_block_entry q k v wo bo Q K Vp Wo Bo β s r f' hq' hk' hv' hwo hbo

end Cert.Attention

end
-- ==== Proof.RegionAttn.lean ====
/-
  Region 3 of @main: the attention region.

  Its grid is 4 × 8. At point (β, σ) the query window's block is rows σ·256 … σ·256 + 255 of batch β of the projected
  queries; the key and value windows' blocks are the whole batch β of the projected keys and values; the output
  projection's weight and bias windows are the whole arrays. Both output windows move with the query window: the output
  block is [1, 256, 1024], the weights block [1, 256, 2048]. What point (β, σ) writes back is therefore block (β, σ) of
  the attention layer's two results, as functions of the region's five input arrays as it finds them; each family of 32
  blocks tiles its array (the block holding query row s is σ = s / 256), so after the region the two output arrays are
  the layer's output and weights.
-/
import proofs.«147061_j49091476194121_2_alg».proof.Proof.Gen.KernelIdeal.Frame
import proofs.«147061_j49091476194121_2_alg».proof.Proof.PayloadAttn
import proofs.«147061_j49091476194121_2_alg».proof.Proof.AttnEntry
import proofs.«147061_j49091476194121_2_alg».proof.Proof.LinearBlock
import Idealize.ShloMosaic.Lib.Pipeline.Value

set_option maxRecDepth 16384

noncomputable section

namespace Cert.KernelIdeal.Region3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen Cert.Attention
open scoped BigOperators
open Cert.KernelIdeal.BodyValue

variable (V : (c : Dev nD) → (b : Ref sig .tc) → Buf (Elt Ideal) ((c : Thread nD τ).loc b))

/-- The printed index maps, decided over the 32 grid points: the query window and both output windows share their
    batch and position block indices; the key and value windows share the batch block index and sit at position block
    zero; every other block index is zero; and the shared block indices stay inside 4 × 8. -/
theorem index_facts : ∀ t : Fin cfg3.N,
    (win3_0.index t (0 : Fin 3) = win3_5.index t (0 : Fin 3) ∧ win3_0.index t (1 : Fin 3) = win3_5.index t (1 : Fin 3)
      ∧ win3_0.index t (2 : Fin 3) = 0)
    ∧ (win3_1.index t (0 : Fin 3) = win3_5.index t (0 : Fin 3) ∧ win3_1.index t (1 : Fin 3) = 0
      ∧ win3_1.index t (2 : Fin 3) = 0)
    ∧ (win3_2.index t (0 : Fin 3) = win3_5.index t (0 : Fin 3) ∧ win3_2.index t (1 : Fin 3) = 0
      ∧ win3_2.index t (2 : Fin 3) = 0)
    ∧ (win3_3.index t (0 : Fin 2) = 0 ∧ win3_3.index t (1 : Fin 2) = 0 ∧ win3_4.index t (0 : Fin 1) = 0)
    ∧ (win3_6.index t (0 : Fin 3) = win3_5.index t (0 : Fin 3) ∧ win3_6.index t (1 : Fin 3) = win3_5.index t (1 : Fin 3)
      ∧ win3_6.index t (2 : Fin 3) = 0 ∧ win3_5.index t (2 : Fin 3) = 0)
    ∧ win3_5.index t (0 : Fin 3) ≤ 3 ∧ win3_5.index t (1 : Fin 3) ≤ 7 :=
  (by decide +kernel : ∀ t : Fin grid3.N, _)

/-- Every block of the 4 × 8 tiling is some point's, for the output window … -/
theorem index_onto_out : ∀ (q0 : Fin 4) (q1 : Fin 8), ∃ t : Fin cfg3.N, win3_5.index t = ![q0.val, q1.val, 0] :=
  (by decide +kernel : ∀ (q0 : Fin 4) (q1 : Fin 8), ∃ t : Fin grid3.N, win3_5.index t = ![q0.val, q1.val, 0])
/-- … and for the weights window. -/
theorem index_onto_weights : ∀ (q0 : Fin 4) (q1 : Fin 8), ∃ t : Fin cfg3.N, win3_6.index t = ![q0.val, q1.val, 0] :=
  (by decide +kernel : ∀ (q0 : Fin 4) (q1 : Fin 8), ∃ t : Fin grid3.N, win3_6.index t = ![q0.val, q1.val, 0])

/-! ## The weights window -/

/-- WHAT POINT `t` WRITES BACK through the weights window is block `t` of the softmax of the scores of the region's
    query and key arrays. -/
theorem flushed_weights_eq (c : Dev nD) (t : Fin cfg3.N) :
    (dat3 V c).flushed 6 t
      = ((cfg3.win 6).blk t).view.read (Elt Ideal) (softmax (score (V c main_v2) (V c main_v3))) := by
  show (cfg3.win 6).cut (grid3.coords t) ((dat3 V c).after 6 t) = _
  rw [after3_6]
  unfold out3_6
  rw [View.canon_unit_zero zeros3]
  simp only [View.ld_unit_zero (S := S1x256x1024) zeros3, View.ld_unit_zero (S := S1x2048x1024) zeros3]
  obtain ⟨⟨a0, a1, a2⟩, ⟨b0, b1, b2⟩, -, -, ⟨w0, w1, w2, o2⟩, l0, l1⟩ := index_facts t
  funext j
  refine weights_entry _ (iblk3 V c 0 t) (iblk3 V c 1 t)
    (k3_pay2_apply (iblk3 V c 0 t) (iblk3 V c 1 t)) _ _ j (((cfg3.win 6).blk t).view.emb j) ?_ ?_ ?_
  · intro e
    show V c main_v2 (((cfg3.win 0).blk t).view.emb (ix3 (0 : Fin 1) (j 1) e)) = _
    refine congrArg (V c main_v2) (funext fun a => Fin.ext ?_)
    have hj0 : (j 0).val < 1 := (j 0).isLt
    match a with
    | ⟨0, _⟩ => show win3_0.index t (0 : Fin 3) * 1 + 1 * 0 = win3_6.index t (0 : Fin 3) * 1 + 1 * (j 0).val; omega
    | ⟨1, _⟩ => show win3_0.index t (1 : Fin 3) * 256 + 1 * (j 1).val = win3_6.index t (1 : Fin 3) * 256 + 1 * (j 1).val; omega
    | ⟨2, _⟩ => show win3_0.index t (2 : Fin 3) * 1024 + 1 * e.val = e.val; omega
  · intro t' e
    show V c main_v3 (((cfg3.win 1).blk t).view.emb (ix3 (0 : Fin 1) t' e)) = _
    refine congrArg (V c main_v3) (funext fun a => Fin.ext ?_)
    have hj0 : (j 0).val < 1 := (j 0).isLt
    match a with
    | ⟨0, _⟩ => show win3_1.index t (0 : Fin 3) * 1 + 1 * 0 = win3_6.index t (0 : Fin 3) * 1 + 1 * (j 0).val; omega
    | ⟨1, _⟩ => show win3_1.index t (1 : Fin 3) * 2048 + 1 * t'.val = t'.val; omega
    | ⟨2, _⟩ => show win3_1.index t (2 : Fin 3) * 1024 + 1 * e.val = e.val; omega
  · show win3_6.index t (2 : Fin 3) * 2048 + 1 * (j 2).val = (j 2).val
    omega

/-- An index of the weights array is in point `t`'s block iff each coordinate is in the block's range on its axis. -/
theorem mem_blk_weights (t : Fin cfg3.N) (i : S4x2048x2048.Idx) :
    i ∈ ((cfg3.win 6).blk t).view.set ↔ ∀ a : Fin 3, win3_6.index t a * S1x256x2048.size a ≤ (i a).val
      ∧ (i a).val < win3_6.index t a * S1x256x2048.size a + S1x256x2048.size a := by
  show i ∈ ((View.whole main_v5_1).slice (win3_6.rect t)).set ↔ _
  rw [View.set_slice_whole, Rect.mem_set_unit]
  exact Iff.rfl

/-- THE COVER of the weights array: query row (β, s) lies in the block of the point whose block index is (β, s / 256). -/
theorem cover_weights (i : S4x2048x2048.Idx) :
    ∃ t : Fin cfg3.N, (cfg3.win 6).flush t = true ∧ i ∈ ((cfg3.win 6).blk t).view.set := by
  have hi0 : (i 0).val < 4 := (i 0).isLt
  have hi1 : (i 1).val < 2048 := (i 1).isLt
  have hi2 : (i 2).val < 2048 := (i 2).isLt
  obtain ⟨t, ht⟩ := index_onto_weights ⟨(i 0).val, hi0⟩ ⟨(i 1).val / 256, by omega⟩
  have q0 : win3_6.index t (0 : Fin 3) = (i 0).val := congrFun ht 0
  have q1 : win3_6.index t (1 : Fin 3) = (i 1).val / 256 := congrFun ht 1
  have q2 : win3_6.index t (2 : Fin 3) = 0 := congrFun ht 2
  refine ⟨t, flush3_6 t, ?_⟩
  rw [mem_blk_weights]
  intro a
  match a with
  | ⟨0, _⟩ => show win3_6.index t (0 : Fin 3) * 1 ≤ (i 0).val ∧ (i 0).val < win3_6.index t (0 : Fin 3) * 1 + 1; omega
  | ⟨1, _⟩ => show win3_6.index t (1 : Fin 3) * 256 ≤ (i 1).val ∧ (i 1).val < win3_6.index t (1 : Fin 3) * 256 + 256; omega
  | ⟨2, _⟩ => show win3_6.index t (2 : Fin 3) * 2048 ≤ (i 2).val ∧ (i 2).val < win3_6.index t (2 : Fin 3) * 2048 + 2048; omega

/-- THE WEIGHTS ARRAY after the region: the softmax of the scores of the region's query and key arrays. -/
theorem weights_array_eq (c : Dev nD) :
    (dat3 V c).arrAt 6 cfg3.N = softmax (score (V c main_v2) (V c main_v3)) :=
  (dat3 V c).arrAt_eq_of_cover 6 _ (fun t _ => flushed_weights_eq V c t) cover_weights

/-! ## The output window -/

/-- WHAT POINT `t` WRITES BACK through the output window is block `t` of the output projection of the context. -/
theorem flushed_out_eq (c : Dev nD) (t : Fin cfg3.N) :
    (dat3 V c).flushed 5 t
      = ((cfg3.win 5).blk t).view.read (Elt Ideal)
          (linear (context (softmax (score (V c main_v2) (V c main_v3))) (V c main_v4)) (V c main_v1) (V c main_arg6)) := by
  show (cfg3.win 5).cut (grid3.coords t) ((dat3 V c).after 5 t) = _
  rw [after3_5]
  unfold out3_5
  rw [View.canon_unit_zero zeros3]
  simp only [View.ld_unit_zero (S := S1x256x1024) zeros3, View.ld_unit_zero (S := S1x2048x1024) zeros3,
    View.ld_unit_zero (S := S1024x1024) zeros2, View.ld_unit_zero (S := S1024) zeros1]
  obtain ⟨⟨a0, a1, a2⟩, ⟨b0, b1, b2⟩, ⟨v0, v1, v2⟩, ⟨m0, m1, m2⟩, ⟨w0, w1, w2, o2⟩, l0, l1⟩ := index_facts t
  funext j
  refine output_entry _ (iblk3 V c 0 t) (iblk3 V c 1 t) (iblk3 V c 2 t) (iblk3 V c 3 t) (iblk3 V c 4 t)
    (k3_pay3_apply (iblk3 V c 0 t) (iblk3 V c 1 t) (iblk3 V c 2 t) (iblk3 V c 3 t) (iblk3 V c 4 t)) _ _ _ _ _
    j (((cfg3.win 5).blk t).view.emb j) ?_ ?_ ?_ ?_ ?_ ?_
  · intro e
    show V c main_v2 (((cfg3.win 0).blk t).view.emb (ix3 (0 : Fin 1) (j 1) e)) = _
    refine congrArg (V c main_v2) (funext fun a => Fin.ext ?_)
    have hj0 : (j 0).val < 1 := (j 0).isLt
    match a with
    | ⟨0, _⟩ => show win3_0.index t (0 : Fin 3) * 1 + 1 * 0 = win3_5.index t (0 : Fin 3) * 1 + 1 * (j 0).val; omega
    | ⟨1, _⟩ => show win3_0.index t (1 : Fin 3) * 256 + 1 * (j 1).val = win3_5.index t (1 : Fin 3) * 256 + 1 * (j 1).val; omega
    | ⟨2, _⟩ => show win3_0.index t (2 : Fin 3) * 1024 + 1 * e.val = e.val; omega
  · intro t' e
    show V c main_v3 (((cfg3.win 1).blk t).view.emb (ix3 (0 : Fin 1) t' e)) = _
    refine congrArg (V c main_v3) (funext fun a => Fin.ext ?_)
    have hj0 : (j 0).val < 1 := (j 0).isLt
    match a with
    | ⟨0, _⟩ => show win3_1.index t (0 : Fin 3) * 1 + 1 * 0 = win3_5.index t (0 : Fin 3) * 1 + 1 * (j 0).val; omega
    | ⟨1, _⟩ => show win3_1.index t (1 : Fin 3) * 2048 + 1 * t'.val = t'.val; omega
    | ⟨2, _⟩ => show win3_1.index t (2 : Fin 3) * 1024 + 1 * e.val = e.val; omega
  · intro t' e
    show V c main_v4 (((cfg3.win 2).blk t).view.emb (ix3 (0 : Fin 1) t' e)) = _
    refine congrArg (V c main_v4) (funext fun a => Fin.ext ?_)
    have hj0 : (j 0).val < 1 := (j 0).isLt
    match a with
    | ⟨0, _⟩ => show win3_2.index t (0 : Fin 3) * 1 + 1 * 0 = win3_5.index t (0 : Fin 3) * 1 + 1 * (j 0).val; omega
    | ⟨1, _⟩ => show win3_2.index t (1 : Fin 3) * 2048 + 1 * t'.val = t'.val; omega
    | ⟨2, _⟩ => show win3_2.index t (2 : Fin 3) * 1024 + 1 * e.val = e.val; omega
  · intro e f
    show V c main_v1 (((cfg3.win 3).blk t).view.emb (ix2 e f)) = _
    refine congrArg (V c main_v1) (funext fun a => Fin.ext ?_)
    match a with
    | ⟨0, _⟩ => show win3_3.index t (0 : Fin 2) * 1024 + 1 * e.val = e.val; omega
    | ⟨1, _⟩ => show win3_3.index t (1 : Fin 2) * 1024 + 1 * f.val = f.val; omega
  · intro f
    show V c main_arg6 (((cfg3.win 4).blk t).view.emb (ix1 f)) = _
    refine congrArg (V c main_arg6) (funext fun a => Fin.ext ?_)
    match a with
    | ⟨0, _⟩ => show win3_4.index t (0 : Fin 1) * 1024 + 1 * f.val = f.val; omega
  · show win3_5.index t (2 : Fin 3) * 1024 + 1 * (j 2).val = (j 2).val
    omega

/-- An index of the output array is in point `t`'s block iff each coordinate is in the block's range on its axis. -/
theorem mem_blk_out (t : Fin cfg3.N) (i : S4x2048x1024.Idx) :
    i ∈ ((cfg3.win 5).blk t).view.set ↔ ∀ a : Fin 3, win3_5.index t a * S1x256x1024.size a ≤ (i a).val
      ∧ (i a).val < win3_5.index t a * S1x256x1024.size a + S1x256x1024.size a := by
  show i ∈ ((View.whole main_v5_0).slice (win3_5.rect t)).set ↔ _
  rw [View.set_slice_whole, Rect.mem_set_unit]
  exact Iff.rfl

/-- THE COVER of the output array. -/
theorem cover_out (i : S4x2048x1024.Idx) :
    ∃ t : Fin cfg3.N, (cfg3.win 5).flush t = true ∧ i ∈ ((cfg3.win 5).blk t).view.set := by
  have hi0 : (i 0).val < 4 := (i 0).isLt
  have hi1 : (i 1).val < 2048 := (i 1).isLt
  have hi2 : (i 2).val < 1024 := (i 2).isLt
  obtain ⟨t, ht⟩ := index_onto_out ⟨(i 0).val, hi0⟩ ⟨(i 1).val / 256, by omega⟩
  have q0 : win3_5.index t (0 : Fin 3) = (i 0).val := congrFun ht 0
  have q1 : win3_5.index t (1 : Fin 3) = (i 1).val / 256 := congrFun ht 1
  have q2 : win3_5.index t (2 : Fin 3) = 0 := congrFun ht 2
  refine ⟨t, flush3_5 t, ?_⟩
  rw [mem_blk_out]
  intro a
  match a with
  | ⟨0, _⟩ => show win3_5.index t (0 : Fin 3) * 1 ≤ (i 0).val ∧ (i 0).val < win3_5.index t (0 : Fin 3) * 1 + 1; omega
  | ⟨1, _⟩ => show win3_5.index t (1 : Fin 3) * 256 ≤ (i 1).val ∧ (i 1).val < win3_5.index t (1 : Fin 3) * 256 + 256; omega
  | ⟨2, _⟩ => show win3_5.index t (2 : Fin 3) * 1024 ≤ (i 2).val ∧ (i 2).val < win3_5.index t (2 : Fin 3) * 1024 + 1024; omega

/-- THE OUTPUT ARRAY after the region: the output projection of the context of the region's arrays. -/
theorem out_array_eq (c : Dev nD) :
    (dat3 V c).arrAt 5 cfg3.N
      = linear (context (softmax (score (V c main_v2) (V c main_v3))) (V c main_v4)) (V c main_v1) (V c main_arg6) :=
  (dat3 V c).arrAt_eq_of_cover 5 _ (fun t _ => flushed_out_eq V c t) cover_out

end Cert.KernelIdeal.Region3

end
-- ==== Proof.Results.lean ====
/-
  The two result arrays of the idealized kernel, as functions of the arguments.

  The attention region finds the projected queries, keys and values — each the linear layer of its argument with the
  shared projection — together with the output projection's weight and bias, and leaves in its two output arrays the
  layer's output and its softmax weights of those five arrays. Substituting what it finds gives the specification's
  `output` and `weights` of the seven launch arrays.
-/
import proofs.«147061_j49091476194121_2_alg».proof.Proof.Boundary
import proofs.«147061_j49091476194121_2_alg».proof.Proof.RegionAttn

set_option maxRecDepth 16384

noncomputable section

namespace Cert.KernelIdeal.Results

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen Cert.Attention
open scoped BigOperators
open Cert.KernelIdeal.Boundary

variable (m : (ℓ : Loc nD τ sig) → Buf (Elt Ideal) ℓ) (ρ : Dev nD → PrngReg)

/-- The softmax of the scores of equal arrays. -/
theorem softmax_score_congr {Q Q' K K' : Act.Idx → EReal} (hQ : Q = Q') (hK : K = K') :
    softmax (score Q K) = softmax (score Q' K') := by
  subst hQ hK; rfl

/-- The output projection of the context of equal arrays. -/
theorem attention_out_congr {Q Q' K K' Vp Vp' : Act.Idx → EReal} {Wo Wo' : Mat.Idx → EReal} {Bo Bo' : Bias.Idx → EReal}
    (hQ : Q = Q') (hK : K = K') (hV : Vp = Vp') (hW : Wo = Wo') (hB : Bo = Bo') :
    linear (context (softmax (score Q K)) Vp) Wo Bo = linear (context (softmax (score Q' K')) Vp') Wo' Bo' := by
  subst hQ hK hV hW hB; rfl

/-- The weights array after the run is the specification's `weights` of the launch arrays. -/
theorem weights_result (c : Dev nD) :
    (W5 m ρ c (Proc.devRef .tc main_v5_1) : Att.Idx → EReal)
      = weights (m ((c : Thread nD τ).loc main_arg0)) (m ((c : Thread nD τ).loc main_arg1)) (m ((c : Thread nD τ).loc main_arg3)) (m ((c : Thread nD τ).loc main_arg4)) :=
  ((W5_arr m ρ c 6).trans (Region3.weights_array_eq (V4 m ρ) c)).trans
    (softmax_score_congr (V4_v2 m ρ c) (V4_v3 m ρ c))

/-- The output array after the run is the specification's `output` of the launch arrays. -/
theorem output_result (c : Dev nD) :
    (W5 m ρ c (Proc.devRef .tc main_v5_0) : Act.Idx → EReal)
      = output (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) :=
  ((W5_arr m ρ c 5).trans (Region3.out_array_eq (V4 m ρ) c)).trans
    (attention_out_congr (V4_v2 m ρ c) (V4_v3 m ρ c) (value_array m ρ c) (V4_v1 m ρ c) (V4_arg6 m ρ c))

end Cert.KernelIdeal.Results

end
-- ==== Proof.RefValue.lean ====
/-
  The reference program read as the attention layer of the specification.

  Each host operation's value (the generated reading of the program, one operation at a time) is identified, index by
  index, with a function of the specification: the three input projections and the output projection with `linear`,
  the batched product of queries and keys with `score`, the maximum over the key axis with `rowMax`, the shifted
  exponentials with `expShift`, their sum over the key axis with `rowSum`, the quotient with `softmax`, the batched
  product of weights and values with `context`. Every step is a rewriting of an index function into coordinates and
  of an operation at the extended reals into the operation it is; no arithmetic is rearranged.
-/
import proofs.«147061_j49091476194121_2_alg».proof.Proof.Gen.ReferenceIdeal.Read
import proofs.«147061_j49091476194121_2_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx
open Cert.Attention
open scoped BigOperators

/-- Activation arrays, as the program types them. -/
abbrev ActV := (⟨S4x2048x1024, .f32⟩ : BufTy).Contents (Elt Ideal)
/-- Projection matrices, as the program types them. -/
abbrev MatV := (⟨S1024x1024, .f32⟩ : BufTy).Contents (Elt Ideal)
/-- Bias vectors, as the program types them. -/
abbrev BiasV := (⟨S1024, .f32⟩ : BufTy).Contents (Elt Ideal)

/-! ## The projections -/

/-- The first projection stage is the linear layer: the contraction over the feature axis plus the bias broadcast
    along batch and position. -/
theorem linear_stage (X : ActV) (W : MatV) (b : BiasV) :
    val_main_v3 (F := Ideal) X W b = linear X W b := by
  funext i
  rw [val_main_v3_apply, val_main_v0_apply, val_main_v2_apply, val_main_v1_apply, Ideal.addf_def]
  have el : ∀ k : Fin 1024, lidx_main_v0 i k = ix3 (i 0) (i 1) k := fun k => funext fun a => by
    match a with | ⟨0, _⟩ => rfl | ⟨1, _⟩ => rfl | ⟨2, _⟩ => rfl
  have er : ∀ k : Fin 1024, ridx_main_v0 i k = ix2 k (i 2) := fun k => funext fun a => by
    match a with | ⟨0, _⟩ => rfl | ⟨1, _⟩ => rfl
  have eb : idx_main_v1 (idx_main_v2 i) = ix1 (i 2) := funext fun a => by
    match a with | ⟨0, _⟩ => rfl
  simp only [el, er, eb]
  rfl

/-- The key projection is the same program text as the query projection, at the key array. -/
theorem key_stage (x1 : ActV) (x3 : MatV) (x4 : BiasV) :
    val_main_v7 (F := Ideal) x1 x3 x4 = linear x1 x3 x4 :=
  (rfl : val_main_v7 (F := Ideal) x1 x3 x4 = val_main_v3 (F := Ideal) x1 x3 x4).trans (linear_stage x1 x3 x4)

/-- The value projection likewise, at the value array. -/
theorem value_stage (x2 : ActV) (x3 : MatV) (x4 : BiasV) :
    val_main_v11 (F := Ideal) x2 x3 x4 = linear x2 x3 x4 :=
  (rfl : val_main_v11 (F := Ideal) x2 x3 x4 = val_main_v3 (F := Ideal) x2 x3 x4).trans (linear_stage x2 x3 x4)

/-! ## The scores -/

/-- The batched contraction of the projected queries and keys over the feature axis is the score. -/
theorem score_stage (x0 x1 : ActV) (x3 : MatV) (x4 : BiasV) :
    val_main_v12 (F := Ideal) x0 x1 x3 x4 = score (linear x0 x3 x4) (linear x1 x3 x4) := by
  funext i
  rw [val_main_v12_apply, linear_stage, key_stage]
  have el : ∀ k : Fin 1024, lidx_main_v12 i k = ix3 (i 0) (i 1) k := fun k => funext fun a => by
    match a with | ⟨0, _⟩ => rfl | ⟨1, _⟩ => rfl | ⟨2, _⟩ => rfl
  have er : ∀ k : Fin 1024, ridx_main_v12 i k = ix3 (i 0) (i 2) k := fun k => funext fun a => by
    match a with | ⟨0, _⟩ => rfl | ⟨1, _⟩ => rfl | ⟨2, _⟩ => rfl
  simp only [el, er]
  rfl

/-! ## The row maximum -/

/-- The score shape with its key axis dropped is the shape of the rows. -/
theorem reduces_key : S4x2048x2048.Reduces [2] S4x2048 := by decide

/-- A row (β, s) with key position `k` put back on the dropped axis is the index (β, s, k). -/
theorem lift_key (j : S4x2048.Idx) (k : Fin (S4x2048x2048.size 2)) :
    reduces_key.lift j k = ix3 (j 0) (j 1) (⟨k.val, k.isLt⟩ : Fin 2048) := by
  funext c; apply Fin.ext
  fin_cases c <;> rfl

/-- The reduce with a maximum body from −∞, followed by one more maximum with −∞, is the row maximum of the scores:
    the reduce is the fold of `max` from −∞ over the key positions, and the extra maximum with the fold's own starting
    value changes nothing. -/
theorem rowMax_stage (x0 x1 : ActV) (x3 : MatV) (x4 : BiasV) (j : S4x2048.Idx) :
    val_main_v15 (F := Ideal) x0 x1 x3 x4 j = rowMax (score (linear x0 x3 x4) (linear x1 x3 x4)) (j 0) (j 1) := by
  rw [val_main_v15_apply, val_main_v14_apply, val_main_cst_0_apply, Ideal.maximumf_def, Ideal.ofBits_def]
  unfold val_main_v13
  rw [Host.reduce_eq_fold_single FloatOps.maximumf _ _ reducesTo_S4x2048x2048_S4x2048_d2 reduces_key h_S_, score_stage]
  have hf : (score (linear x0 x3 x4) (linear x1 x3 x4) ∘ reduces_key.lift j)
      = fun t : Fin 2048 => score (linear x0 x3 x4) (linear x1 x3 x4) (ix3 (j 0) (j 1) t) :=
    funext fun k => congrArg (score (linear x0 x3 x4) (linear x1 x3 x4)) (lift_key j k)
  rw [hf]
  exact max_fold_max_self Finset.univ negInf _

/-! ## The softmax -/

/-- Subtracting the row maximum, broadcast back along the key axis, and exponentiating gives the shifted
    exponentials. -/
theorem expShift_stage (x0 x1 : ActV) (x3 : MatV) (x4 : BiasV) :
    val_main_v19 (F := Ideal) x0 x1 x3 x4 = expShift (score (linear x0 x3 x4) (linear x1 x3 x4)) := by
  funext i
  rw [val_main_v19_apply, val_main_v18_apply, val_main_v17_apply, val_main_v16_apply, rowMax_stage, score_stage,
    Ideal.hostUnary_exp_def, Ideal.subf_def]
  rfl

/-- The sum over the key axis, started from the zero word, is the row's normaliser. -/
theorem rowSum_stage (x0 x1 : ActV) (x3 : MatV) (x4 : BiasV) (j : S4x2048.Idx) :
    val_main_v20 (F := Ideal) x0 x1 x3 x4 j = rowSum (score (linear x0 x3 x4) (linear x1 x3 x4)) (j 0) (j 1) := by
  rw [val_main_v20_apply, val_main_cst_1_apply, Ideal.ofBits_def, Ideal.ofBits_zero_f32, zero_add, expShift_stage]
  have e : ∀ k : Fin 2048, idx_main_v20 j k = ix3 (j 0) (j 1) k := fun k => funext fun a => by
    match a with | ⟨0, _⟩ => rfl | ⟨1, _⟩ => rfl | ⟨2, _⟩ => rfl
  simp only [e]
  rfl

/-- The quotient of the shifted exponentials by the normaliser, broadcast back along the key axis, is the softmax. -/
theorem softmax_stage (x0 x1 : ActV) (x3 : MatV) (x4 : BiasV) :
    val_main_v23 (F := Ideal) x0 x1 x3 x4 = softmax (score (linear x0 x3 x4) (linear x1 x3 x4)) := by
  funext i
  rw [val_main_v23_apply, val_main_v22_apply, val_main_v21_apply, rowSum_stage, expShift_stage, Ideal.hostDivf_def]
  rfl

/-- The program's second result is the layer's attention weights. -/
theorem weights_eq (x0 x1 : ActV) (x3 : MatV) (x4 : BiasV) :
    val_main_v23 (F := Ideal) x0 x1 x3 x4 = Cert.Attention.weights x0 x1 x3 x4 :=
  softmax_stage x0 x1 x3 x4

/-! ## The context and the output projection -/

/-- The batched contraction of the weights with the projected values over the key axis is the context. -/
theorem context_stage (x0 x1 x2 : ActV) (x3 : MatV) (x4 : BiasV) :
    val_main_v24 (F := Ideal) x0 x1 x2 x3 x4 = context (weights x0 x1 x3 x4) (linear x2 x3 x4) := by
  funext i
  rw [val_main_v24_apply, weights_eq, value_stage]
  have el : ∀ k : Fin 2048, lidx_main_v24 i k = ix3 (i 0) (i 1) k := fun k => funext fun a => by
    match a with | ⟨0, _⟩ => rfl | ⟨1, _⟩ => rfl | ⟨2, _⟩ => rfl
  have er : ∀ k : Fin 2048, ridx_main_v24 i k = ix3 (i 0) k (i 2) := fun k => funext fun a => by
    match a with | ⟨0, _⟩ => rfl | ⟨1, _⟩ => rfl | ⟨2, _⟩ => rfl
  simp only [el, er]
  rfl

/-- The program's first result is the layer's output: the output projection is the same program text as the input
    projections, at the context and the output weights. -/
theorem output_eq (x0 x1 x2 : ActV) (x3 : MatV) (x4 : BiasV) (x5 : MatV) (x6 : BiasV) :
    val_main_v28 (F := Ideal) x0 x1 x2 x3 x4 x5 x6 = Cert.Attention.output x0 x1 x2 x3 x4 x5 x6 := by
  rw [show val_main_v28 (F := Ideal) x0 x1 x2 x3 x4 x5 x6
      = val_main_v3 (F := Ideal) (val_main_v24 (F := Ideal) x0 x1 x2 x3 x4) x5 x6 from rfl, linear_stage, context_stage]
  rfl

end Cert.ReferenceIdeal.RefValue

end
-- ==== Proof.lean ====
/-
  One attention layer, as a fused Pallas kernel and as plain jnp, computes the same two arrays over the extended reals.

  Both programs take activations `query`, `key`, `value` of shape [4, 2048, 1024], one projection `Wq`, `bq` shared by
  all three, and an output projection `Wo`, `bo`, and return
      weights = softmax over t of ( Σ_e Q(β, s, e) · K(β, t, e) ),        Q, K, V = X · Wq + bq for X = query, key, value,
      output  = ( Σ_t weights(β, s, t) · V(β, t, ·) ) · Wo + bo
  (Spec.lean states these as functions of whole arrays). The kernel runs three pipelined projection regions and one
  attention region over a 4 × 8 grid of 256-row blocks, with bf16 copies of the weights and a bf16 copy of V; at the
  extended reals a change of float format is the identity, a matrix product into a zero accumulator is the plain sum,
  and the blocks of every output tile its array, so each region leaves in its output array one whole-array function of
  the arrays it read (RegionProj0–2, RegionAttn), and chaining the four regions through the buffer contents at the
  segment boundaries (Boundary, Results) gives `output` and `weights` of the seven launch arrays. The reference's run is
  its operations' composed term, read one operation at a time as the same two functions (RefValue): its softmax takes
  the row maximum once more against −∞, which changes nothing. The two sides are therefore equal index by index, with
  no rearrangement of any sum and no use of the inputs' finiteness. The idealization rewrote nothing, so `preserves` is
  trivial; the three frames are the generated ones.
-/
import proofs.«147061_j49091476194121_2_alg».proof.Defs
import proofs.«147061_j49091476194121_2_alg».proof.Proof.Gen.Kernel
import proofs.«147061_j49091476194121_2_alg».proof.Proof.Gen.Kernel.Skeleton
import proofs.«147061_j49091476194121_2_alg».proof.Proof.Gen.Kernel.Launch
import proofs.«147061_j49091476194121_2_alg».proof.Proof.Gen.Kernel.Points
import proofs.«147061_j49091476194121_2_alg».proof.Proof.Gen.Kernel.Frame
import proofs.«147061_j49091476194121_2_alg».proof.Proof.Gen.KernelIdeal
import proofs.«147061_j49091476194121_2_alg».proof.Proof.Gen.KernelIdeal.Skeleton
import proofs.«147061_j49091476194121_2_alg».proof.Proof.Gen.KernelIdeal.Launch
import proofs.«147061_j49091476194121_2_alg».proof.Proof.Gen.KernelIdeal.Points
import proofs.«147061_j49091476194121_2_alg».proof.Proof.Gen.KernelIdeal.Frame
import proofs.«147061_j49091476194121_2_alg».proof.Proof.Gen.ReferenceIdeal
import proofs.«147061_j49091476194121_2_alg».proof.Proof.Gen.Pre_finite_inputs
import proofs.«147061_j49091476194121_2_alg».proof.Proof.Gen.ReferenceIdeal.Run
import proofs.«147061_j49091476194121_2_alg».proof.Proof.Gen.ReferenceIdeal.Read
import proofs.«147061_j49091476194121_2_alg».proof.Proof.KernelRun
import proofs.«147061_j49091476194121_2_alg».proof.Proof.Results
import proofs.«147061_j49091476194121_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its generated run with the two results dropped. -/
theorem frame_referenceIdeal : Cert.frame_ReferenceIdeal := fun m ρ _ =>
  (θ_run Cert.ReferenceIdeal.defs _ _).mono (fun _ h c => (h c).2.2)
    (Cert.ReferenceIdeal.Value.run (F := Ideal) m ρ)

/-- The ideal pass rewrote no operation. -/
theorem preserves : Cert.preserves_Kernel_KernelIdeal := trivial

/-- From memories that agree on the seven arguments both programs end with the specification's `output` and
    `weights` of those arguments: the kernel by its run read at the last segment boundary, the reference by its run's
    composed term read one operation at a time. -/
theorem algebraic : Cert.algebraic_KernelIdeal_ReferenceIdeal := by
  intro m ρ m' ρ' _ hagree
  refine ⟨fun c => Cert.Attention.output (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.Attention.weights (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · refine (θ_run Cert.KernelIdeal.defs _ _).mono (fun r h c => ?_) (Cert.KernelIdeal.RunValue.run_at (F := Ideal) m ρ)
    exact ⟨(h c Cert.KernelIdeal.main_v5_0 (by decide)).trans (Cert.KernelIdeal.Results.output_result m ρ c),
      (h c Cert.KernelIdeal.main_v5_1 (by decide)).trans (Cert.KernelIdeal.Results.weights_result m ρ c),
      (h c Cert.KernelIdeal.main_arg0 (by decide)).trans (Cert.KernelIdeal.Gen.W5_main_arg0 m ρ c),
      (h c Cert.KernelIdeal.main_arg1 (by decide)).trans (Cert.KernelIdeal.Gen.W5_main_arg1 m ρ c),
      (h c Cert.KernelIdeal.main_arg2 (by decide)).trans (Cert.KernelIdeal.Gen.W5_main_arg2 m ρ c),
      (h c Cert.KernelIdeal.main_arg3 (by decide)).trans (Cert.KernelIdeal.Gen.W5_main_arg3 m ρ c),
      (h c Cert.KernelIdeal.main_arg4 (by decide)).trans (Cert.KernelIdeal.Gen.W5_main_arg4 m ρ c),
      (h c Cert.KernelIdeal.main_arg5 (by decide)).trans (Cert.KernelIdeal.Gen.W5_main_arg5 m ρ c),
      (h c Cert.KernelIdeal.main_arg6 (by decide)).trans (Cert.KernelIdeal.Gen.W5_main_arg6 m ρ c)⟩
  · refine (θ_run Cert.ReferenceIdeal.defs _ _).mono (fun r h c => ⟨(h c).1.trans ?_, (h c).2.1.trans ?_, (h c).2.2⟩)
      (Cert.ReferenceIdeal.Value.run (F := Ideal) m' ρ')
    · rw [Cert.ReferenceIdeal.Read.val_main_v28_eq, Cert.ReferenceIdeal.RefValue.output_eq,
        (hagree c).1, (hagree c).2.1, (hagree c).2.2.1, (hagree c).2.2.2.1, (hagree c).2.2.2.2.1,
        (hagree c).2.2.2.2.2.1, (hagree c).2.2.2.2.2.2]
    · rw [Cert.ReferenceIdeal.Read.val_main_v23_eq, Cert.ReferenceIdeal.RefValue.weights_eq,
        (hagree c).1, (hagree c).2.1, (hagree c).2.2.2.1, (hagree c).2.2.2.2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
